-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x6 : Shape := ⟨3, ![2, 512, 6]⟩
abbrev S2x256x256x2 : Shape := ⟨4, ![2, 256, 256, 2]⟩
abbrev S_ : Shape := ⟨0, ![]⟩

class Facts : Prop where
  bcast_S_S2x512x6 : S_.BroadcastsInDim S2x512x6 (![] : Fin 0 → Fin S2x512x6.rank)
  reducesTo_S2x512x6_S_d0_1_2 : S2x512x6.ReducesTo [0, 1, 2] S_
  h_S_ : 0 < S_.numel
  bcast_S_S2x256x256x2 : S_.BroadcastsInDim S2x256x256x2 (![] : Fin 0 → Fin S2x256x256x2.rank)
  reducesTo_S2x256x256x2_S_d0_1_2_3 : S2x256x256x2.ReducesTo [0, 1, 2, 3] S_

variable [Facts]

def fn {F : FTy → Type} [FloatOps F] (main_arg0 : FVec F S2x512x6 .f32) (main_arg1 : FVec F S2x256x256x2 .f32) : IVec S_ 1 :=
  let main_v0 : FVec F S2x512x6 .f32 := Host.absf main_arg0
  let main_cst : FVec F S_ .f32 := constant S_ .f32 0x7F800000#32
  let main_v1 : FVec F S2x512x6 .f32 := broadcastInDim S2x512x6 ![] bcast_S_S2x512x6 main_cst
  let main_v2 : IVec S2x512x6 1 := cmpf .olt main_v0 main_v1
  let main_c : IVec S_ 1 := constantI S_ 1 1#1
  let main_v3 : IVec S_ 1 := (fun x v => Host.reduce IntOp.andi x v reducesTo_S2x512x6_S_d0_1_2 h_S_) main_v2 main_c
  let main_v4 : FVec F S2x256x256x2 .f32 := Host.absf main_arg1
  let main_cst_0 : FVec F S_ .f32 := constant S_ .f32 0x7F800000#32
  let main_v5 : FVec F S2x256x256x2 .f32 := broadcastInDim S2x256x256x2 ![] bcast_S_S2x256x256x2 main_cst_0
  let main_v6 : IVec S2x256x256x2 1 := cmpf .olt main_v4 main_v5
  let main_c_1 : IVec S_ 1 := constantI S_ 1 1#1
  let main_v7 : IVec S_ 1 := (fun x v => Host.reduce IntOp.andi x v reducesTo_S2x256x256x2_S_d0_1_2_3 h_S_) main_v6 main_c_1
  let main_v8 : IVec S_ 1 := andi main_v3 main_v7
  main_v8
-- ==== Kernel.lean ====
abbrev S2x512x6 : Shape := ⟨3, ![2, 512, 6]⟩
abbrev S2x256x256x2 : Shape := ⟨4, ![2, 256, 256, 2]⟩
abbrev S2x6x512 : Shape := ⟨3, ![2, 6, 512]⟩
abbrev S2x4x512 : Shape := ⟨3, ![2, 4, 512]⟩
abbrev S2x2x256x256 : Shape := ⟨4, ![2, 2, 256, 256]⟩
abbrev S1x2x32x256 : Shape := ⟨4, ![1, 2, 32, 256]⟩
abbrev S1x4x512 : Shape := ⟨3, ![1, 4, 512]⟩
abbrev S1x1x32x256 : Shape := ⟨4, ![1, 1, 32, 256]⟩
abbrev S32x256 : Shape := ⟨2, ![32, 256]⟩
abbrev S1x1x128 : Shape := ⟨3, ![1, 1, 128]⟩
abbrev S128 : Shape := ⟨1, ![128]⟩
abbrev S32x256x1 : Shape := ⟨3, ![32, 256, 1]⟩
abbrev S32x256x128 : Shape := ⟨3, ![32, 256, 128]⟩

abbrev nBuf : Space → Nat
  | .hbm => 7
  | .vmem => 5
  | .smem => 0
  | _ => 0

abbrev bufTy : (tb : Table) → Fin (tcTables nBuf tb) → BufTy
  | .hbm, ⟨0, _⟩ => ⟨S2x512x6, .f32⟩
  | .hbm, ⟨1, _⟩ => ⟨S2x256x256x2, .f32⟩
  | .hbm, ⟨2, _⟩ => ⟨S2x6x512, .f32⟩
  | .hbm, ⟨3, _⟩ => ⟨S2x4x512, .f32⟩
  | .hbm, ⟨4, _⟩ => ⟨S2x2x256x256, .f32⟩
  | .hbm, ⟨5, _⟩ => ⟨S2x2x256x256, .f32⟩
  | .hbm, ⟨6, _⟩ => ⟨S2x256x256x2, .f32⟩
  | .local _ .vmem, ⟨0, _⟩ => ⟨S1x2x32x256, .f32⟩
  | .local _ .vmem, ⟨1, _⟩ => ⟨S1x2x32x256, .f32⟩
  | .local _ .vmem, ⟨2, _⟩ => ⟨S1x4x512, .f32⟩
  | .local _ .vmem, ⟨3, _⟩ => ⟨S1x2x32x256, .f32⟩
  | .local _ .vmem, ⟨4, _⟩ => ⟨S1x2x32x256, .f32⟩
  | _, _ => ⟨S2x512x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v14 : BitVec 32 := Scalar.muli arg5 c128_i32
  v14
def k0_off1 (k0_t1 : Fin k0_t1_loop.trips) : Fin 3 → Nat :=
  let c0_16 : Index := 0#32
  let c0_17 : Index := 0#32
  let c0_i32 : BitVec 32 := 0#32
  let c1_i32 : BitVec 32 := 1#32
  let arg5 : BitVec 32 := Scf.iv c0_i32 c1_i32 k0_t1
  let c128_i32 : BitVec 32 := 128#32
  let v14 : BitVec 32 := Scalar.muli arg5 c128_i32
  let v15 : BitVec 32 := v14
  let v16 : Index := Scalar.indexCast v15
  ![0, 0, v16.toNat]
def k0_off2 (k0_t1 : Fin k0_t1_loop.trips) : Fin 3 → Nat :=
  let c0_18 : Index := 0#32
  let c1_19 : Index := 1#32
  let c0_i32 : BitVec 32 := 0#32
  let c1_i32 : BitVec 32 := 1#32
  let arg5 : BitVec 32 := Scf.iv c0_i32 c1_i32 k0_t1
  let c128_i32 : BitVec 32 := 128#32
  let v14 : BitVec 32 := Scalar.muli arg5 c128_i32
  let v15 : BitVec 32 := v14
  let v19 : Index := Scalar.indexCast v15
  ![0, 1, v19.toNat]
def k0_off3 (k0_t1 : Fin k0_t1_loop.trips) : Fin 3 → Nat :=
  let c0_20 : Index := 0#32
  let c2 : Index := 2#32
  let c0_i32 : BitVec 32 := 0#32
  let c1_i32 : BitVec 32 := 1#32
  let arg5 : BitVec 32 := Scf.iv c0_i32 c1_i32 k0_t1
  let c128_i32 : BitVec 32 := 128#32
  let v14 : BitVec 32 := Scalar.muli arg5 c128_i32
  let v15 : BitVec 32 := v14
  let v22 : Index := Scalar.indexCast v15
  ![0, 2, v22.toNat]
def k0_off4 (k0_t1 : Fin k0_t1_loop.trips) : Fin 3 → Nat :=
  let c0_21 : Index := 0#32
  let c3 : Index := 3#32
  let c0_i32 : BitVec 32 := 0#32
  let c1_i32 : BitVec 32 := 1#32
  let arg5 : BitVec 32 := Scf.iv c0_i32 c1_i32 k0_t1
  let c128_i32 : BitVec 32 := 128#32
  let v14 : BitVec 32 := Scalar.muli arg5 c128_i32
  let v15 : BitVec 32 := v14
  let v25 : Index := Scalar.indexCast v15
  ![0, 3, v25.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x2x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S2x512x6_S2x6x512_0_2_1 : S2x512x6.Transposes [0, 2, 1] S2x6x512
  slices_S2x6x512_S2x4x512_0_0_0 : S2x6x512.Slices ![0, 0, 0] S2x4x512
  transposes_S2x256x256x2_S2x2x256x256_0_3_1_2 : S2x256x256x2.Transposes [0, 3, 1, 2] S2x2x256x256
  inb_S1x2x32x256_S1x1x32x256_0_0_0_0 : ∀ a, (![0, 0, 0, 0] : Fin 4 → Nat) a + S1x1x32x256.size a ≤ S1x2x32x256.size a
  h_S1x1x32x256 : 0 < S1x1x32x256.numel
  shapeCasts_S1x1x32x256_S32x256 : S1x1x32x256.ShapeCasts S32x256
  inb_S1x2x32x256_S1x1x32x256_0_1_0_0 : ∀ a, (![0, 1, 0, 0] : Fin 4 → Nat) a + S1x1x32x256.size a ≤ S1x2x32x256.size a
  h_S1x1x128 : 0 < S1x1x128.numel
  shapeCasts_S1x1x128_S128 : S1x1x128.ShapeCasts S128
  shapeCasts_S32x256_S32x256x1 : S32x256.ShapeCasts S32x256x1
  shapeCasts_S128_S1x1x128 : S128.ShapeCasts S1x1x128
  broadcasts_S32x256x1_S32x256x128 : S32x256x1.Broadcasts S32x256x128
  broadcasts_S1x1x128_S32x256x128 : S1x1x128.Broadcasts S32x256x128
  reduces_S32x256x128_S32x256 : S32x256x128.Reduces [2] S32x256
  shapeCasts_S32x256_S1x1x32x256 : S32x256.ShapeCasts S1x1x32x256
  transposes_S2x2x256x256_S2x256x256x2_0_2_3_1 : S2x2x256x256.Transposes [0, 2, 3, 1] S2x256x256x2
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x1x128.size a ≤ S1x4x512.size a
  k0_off2_inb : ∀ k0_t1 : Fin k0_t1_loop.trips, ∀ a, (k0_off2 k0_t1) a + S1x1x128.size a ≤ S1x4x512.size a
  k0_off3_inb : ∀ k0_t1 : Fin k0_t1_loop.trips, ∀ a, (k0_off3 k0_t1) a + S1x1x128.size a ≤ S1x4x512.size a
  k0_off4_inb : ∀ k0_t1 : Fin k0_t1_loop.trips, ∀ a, (k0_off4 k0_t1) a + S1x1x128.size a ≤ S1x4x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x32x256.size a ≤ S2x2x256x256.size a
  hwx0_0 : ∀ i : grid0.Coords, EltTy.bits .f32 = 32 ∨ (Rect.block (s := S2x2x256x256) S1x2x32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4x512.size a ≤ S2x4x512.size a
  hwx0_1 : ∀ i : grid0.Coords, EltTy.bits .f32 = 32 ∨ (Rect.block (s := S2x4x512) S1x4x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x32x256.size a ≤ S2x2x256x256.size a
  hwx0_2 : ∀ i : grid0.Coords, EltTy.bits .f32 = 32 ∨ (Rect.block (s := S2x2x256x256) S1x2x32x256.size (cc0_transform_2 i) (hinb0_2 i)).WholeWords (EltTy.packing .f32)

variable [Facts₀]

abbrev win0_0 : Pipeline.Window sig grid0 :=
  Pipeline.Window.ofSpec (Memref.whole main_v2) S1x2x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2x32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x512x6 : Shape := ⟨3, ![2, 512, 6]⟩
abbrev S2x256x256x2 : Shape := ⟨4, ![2, 256, 256, 2]⟩
abbrev S2x512x1 : Shape := ⟨3, ![2, 512, 1]⟩
abbrev S2x512 : Shape := ⟨2, ![2, 512]⟩
abbrev S2x512x2 : Shape := ⟨3, ![2, 512, 2]⟩
abbrev S2x256x256x1x2 : Shape := ⟨5, ![2, 256, 256, 1, 2]⟩
abbrev S2x1x1x512x2 : Shape := ⟨5, ![2, 1, 1, 512, 2]⟩
abbrev S2x256x256x512x2 : Shape := ⟨5, ![2, 256, 256, 512, 2]⟩
abbrev S_ : Shape := ⟨0, ![]⟩
abbrev S2x256x256x512 : Shape := ⟨4, ![2, 256, 256, 512]⟩
abbrev S2x256x256x512x1 : Shape := ⟨5, ![2, 256, 256, 512, 1]⟩
abbrev S2x1x1x512x1 : Shape := ⟨5, ![2, 1, 1, 512, 1]⟩

abbrev nBuf : Space → Nat
  | .hbm => 49
  | .vmem => 0
  | .smem => 0
  | _ => 0

abbrev bufTy : (tb : Table) → Fin (tcTables nBuf tb) → BufTy
  | .hbm, ⟨0, _⟩ => ⟨S2x512x6, .f32⟩
  | .hbm, ⟨1, _⟩ => ⟨S2x256x256x2, .f32⟩
  | .hbm, ⟨2, _⟩ => ⟨S2x512x1, .f32⟩
  | .hbm, ⟨3, _⟩ => ⟨S2x512, .f32⟩
  | .hbm, ⟨4, _⟩ => ⟨S2x512x1, .f32⟩
  | .hbm, ⟨5, _⟩ => ⟨S2x512, .f32⟩
  | .hbm, ⟨6, _⟩ => ⟨S2x512x1, .f32⟩
  | .hbm, ⟨7, _⟩ => ⟨S2x512, .f32⟩
  | .hbm, ⟨8, _⟩ => ⟨S2x512x1, .f32⟩
  | .hbm, ⟨9, _⟩ => ⟨S2x512, .f32⟩
  | .hbm, ⟨10, _⟩ => ⟨S2x512x1, .f32⟩
  | .hbm, ⟨11, _⟩ => ⟨S2x512, .f32⟩
  | .hbm, ⟨12, _⟩ => ⟨S2x512x1, .f32⟩
  | .hbm, ⟨13, _⟩ => ⟨S2x512, .f32⟩
  | .hbm, ⟨14, _⟩ => ⟨S2x512x1, .f32⟩
  | .hbm, ⟨15, _⟩ => ⟨S2x512x1, .f32⟩
  | .hbm, ⟨16, _⟩ => ⟨S2x512x2, .f32⟩
  | .hbm, ⟨17, _⟩ => ⟨S2x256x256x1x2, .f32⟩
  | .hbm, ⟨18, _⟩ => ⟨S2x1x1x512x2, .f32⟩
  | .hbm, ⟨19, _⟩ => ⟨S2x256x256x512x2, .f32⟩
  | .hbm, ⟨20, _⟩ => ⟨S2x256x256x512x2, .f32⟩
  | .hbm, ⟨21, _⟩ => ⟨S2x256x256x512x2, .f32⟩
  | .hbm, ⟨22, _⟩ => ⟨S2x256x256x512x2, .f32⟩
  | .hbm, ⟨23, _⟩ => ⟨S_, .f32⟩
  | .hbm, ⟨24, _⟩ => ⟨S2x256x256x512, .f32⟩
  | .hbm, ⟨25, _⟩ => ⟨S2x256x256x512x1, .f32⟩
  | .hbm, ⟨26, _⟩ => ⟨S2x1x1x512x1, .f32⟩
  | .hbm, ⟨27, _⟩ => ⟨S2x1x1x512x1, .f32⟩
  | .hbm, ⟨28, _⟩ => ⟨S2x256x256x512x1, .f32⟩
  | .hbm, ⟨29, _⟩ => ⟨S2x1x1x512x1, .f32⟩
  | .hbm, ⟨30, _⟩ => ⟨S2x256x256x512x1, .f32⟩
  | .hbm, ⟨31, _⟩ => ⟨S2x256x256x512x1, .f32⟩
  | .hbm, ⟨32, _⟩ => ⟨S2x256x256x512x1, .f32⟩
  | .hbm, ⟨33, _⟩ => ⟨S2x256x256x512x1, .f32⟩
  | .hbm, ⟨34, _⟩ => ⟨S2x256x256x512x1, .f32⟩
  | .hbm, ⟨35, _⟩ => ⟨S2x256x256x512x1, .f32⟩
  | .hbm, ⟨36, _⟩ => ⟨S2x256x256x512x1, .f32⟩
  | .hbm, ⟨37, _⟩ => ⟨S2x256x256x512x1, .f32⟩
  | .hbm, ⟨38, _⟩ => ⟨S2x256x256x512, .f32⟩
  | .hbm, ⟨39, _⟩ => ⟨S2x256x256x512x1, .f32⟩
  | .hbm, ⟨40, _⟩ => ⟨S2x256x256x512, .f32⟩
  | .hbm, ⟨41, _⟩ => ⟨S2x256x256x512, .f32⟩
  | .hbm, ⟨42, _⟩ => ⟨S2x256x256x512x1, .f32⟩
  | .hbm, ⟨43, _⟩ => ⟨S2x256x256x512x1, .f32⟩
  | .hbm, ⟨44, _⟩ => ⟨S2x256x256x512x2, .f32⟩
  | .hbm, ⟨45, _⟩ => ⟨S2x256x256x512x2, .f32⟩
  | .hbm, ⟨46, _⟩ => ⟨S2x256x256x512x2, .f32⟩
  | .hbm, ⟨47, _⟩ => ⟨S_, .f32⟩
  | .hbm, ⟨48, _⟩ => ⟨S2x256x256x2, .f32⟩
  | _, _ => ⟨S2x512x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_cst_0 : Ref sig .tc := ⟨.hbm, 47, rfl⟩
abbrev main_v44 : Ref sig .tc := ⟨.hbm, 48, rfl⟩

abbrev nD : Nat := 1
abbrev τ : Topo := Topo.v7x

variable {F : FTy → Type} [FloatOps F]

class Facts₀ : Prop where
  slices_S2x512x6_S2x512x1_0_0_0 : S2x512x6.Slices ![0, 0, 0] S2x512x1
  shapeCasts_S2x512x1_S2x512 : S2x512x1.ShapeCasts S2x512
  slices_S2x512x6_S2x512x1_0_0_1 : S2x512x6.Slices ![0, 0, 1] S2x512x1
  slices_S2x512x6_S2x512x1_0_0_2 : S2x512x6.Slices ![0, 0, 2] S2x512x1
  slices_S2x512x6_S2x512x1_0_0_3 : S2x512x6.Slices ![0, 0, 3] S2x512x1
  slices_S2x512x6_S2x512x1_0_0_4 : S2x512x6.Slices ![0, 0, 4] S2x512x1
  slices_S2x512x6_S2x512x1_0_0_5 : S2x512x6.Slices ![0, 0, 5] S2x512x1
  bcast_S2x512_S2x512x1_0_1 : S2x512.BroadcastsInDim S2x512x1 (![0, 1] : Fin 2 → Fin S2x512x1.rank)
  concatenates_S2x512x1_S2x512x1_S2x512x2_d2 : Shape.Concatenates [S2x512x1, S2x512x1] S2x512x2 2
  bcast_S2x256x256x2_S2x256x256x1x2_0_1_2_4 : S2x256x256x2.BroadcastsInDim S2x256x256x1x2 (![0, 1, 2, 4] : Fin 4 → Fin S2x256x256x1x2.rank)
  bcast_S2x512x2_S2x1x1x512x2_0_3_4 : S2x512x2.BroadcastsInDim S2x1x1x512x2 (![0, 3, 4] : Fin 3 → Fin S2x1x1x512x2.rank)
  bcast_S2x256x256x1x2_S2x256x256x512x2_0_1_2_3_4 : S2x256x256x1x2.BroadcastsInDim S2x256x256x512x2 (![0, 1, 2, 3, 4] : Fin 5 → Fin S2x256x256x512x2.rank)
  bcast_S2x1x1x512x2_S2x256x256x512x2_0_1_2_3_4 : S2x1x1x512x2.BroadcastsInDim S2x256x256x512x2 (![0, 1, 2, 3, 4] : Fin 5 → Fin S2x256x256x512x2.rank)
  reducesTo_S2x256x256x512x2_S2x256x256x512_d4 : S2x256x256x512x2.ReducesTo [4] S2x256x256x512
  h_S_ : 0 < S_.numel
  bcast_S2x256x256x512_S2x256x256x512x1_0_1_2_3 : S2x256x256x512.BroadcastsInDim S2x256x256x512x1 (![0, 1, 2, 3] : Fin 4 → Fin S2x256x256x512x1.rank)
  bcast_S2x512_S2x1x1x512x1_0_3 : S2x512.BroadcastsInDim S2x1x1x512x1 (![0, 3] : Fin 2 → Fin S2x1x1x512x1.rank)
  bcast_S2x1x1x512x1_S2x256x256x512x1_0_1_2_3_4 : S2x1x1x512x1.BroadcastsInDim S2x256x256x512x1 (![0, 1, 2, 3, 4] : Fin 5 → Fin S2x256x256x512x1.rank)
  slices_S2x256x256x512x2_S2x256x256x512x1_0_0_0_0_0 : S2x256x256x512x2.Slices ![0, 0, 0, 0, 0] S2x256x256x512x1
  shapeCasts_S2x256x256x512x1_S2x256x256x512 : S2x256x256x512x1.ShapeCasts S2x256x256x512
  slices_S2x256x256x512x2_S2x256x256x512x1_0_0_0_0_1 : S2x256x256x512x2.Slices ![0, 0, 0, 0, 1] S2x256x256x512x1
  concatenates_S2x256x256x512x1_S2x256x256x512x1_S2x256x256x512x2_d4 : Shape.Concatenates [S2x256x256x512x1, S2x256x256x512x1] S2x256x256x512x2 4
  bcast_S2x256x256x512x1_S2x256x256x512x2_0_1_2_3_4 : S2x256x256x512x1.BroadcastsInDim S2x256x256x512x2 (![0, 1, 2, 3, 4] : Fin 5 → Fin S2x256x256x512x2.rank)
  reducesTo_S2x256x256x512x2_S2x256x256x2_d3 : S2x256x256x512x2.ReducesTo [3] S2x256x256x2

variable [Facts₀]

class Facts : Prop extends Facts₀ where

variable [Facts]
-- ==== Proof.TermLaw.lean ====
/-
  One vortex's contribution to one pixel, as a function of six extended reals: the pixel's two
  coordinates, the vortex's two coordinates, its strength and its width.  The kernel and the
  reference spell it differently (a product with a reciprocal against a quotient, a reciprocal
  square root against a quotient by a square root); on REAL arguments the two spellings are one
  number, which is what this module proves.
-/
import Idealize.ShloMosaic.PureOps.Ideal
import Idealize.ShloMosaic.PureOps.Ideal.Laws

noncomputable section

namespace Cert.Falloff

open Idealize.ShloMosaic

/-- The squared distance `(py - y)² + (px - x)²`. -/
def sqd (py px y x : EReal) : EReal := (py - y) * (py - y) + (px - x) * (px - x)

/-- The kernel's weight: `τ · (exp((0 - d²) · (1 / σ²)) · rsqrt d²)`. -/
def strK (py px y x tau sg : EReal) : EReal :=
  tau * (Ideal.exp ((0 - sqd py px y x) * Ideal.div 1 (sg * sg)) * Ideal.rsqrt (sqd py px y x))

/-- The reference's weight: `τ · (exp((-d²) / σ²) / √d²)`. -/
def strR (py px y x tau sg : EReal) : EReal :=
  tau * Ideal.div (Ideal.exp (Ideal.div (-(sqd py px y x)) (sg * sg))) (Ideal.sqrt (sqd py px y x))

/-- The kernel's contribution to channel `ch`: the weight times `px - x` (channel 0) or times `0 - (py - y)` (channel 1). -/
def termK (ch : ℕ) (py px y x tau sg : EReal) : EReal :=
  if ch = 0 then strK py px y x tau sg * (px - x) else strK py px y x tau sg * (0 - (py - y))

/-- The reference's contribution to channel `ch`: the weight times `px - x` (channel 0) or times `-(py - y)` (channel 1). -/
def termR (ch : ℕ) (py px y x tau sg : EReal) : EReal :=
  if ch = 0 then strR py px y x tau sg * (px - x) else strR py px y x tau sg * (-(py - y))

/-- The pattern of `1.0f` is the number one. -/
theorem ofBits_one_f32 : Ideal.ofBits .f32 0x3F800000#32 = 1 := by
  simp [Ideal.ofBits, Ideal.ieee, -EReal.coe_mul]; norm_num

theorem sqd_coe (py px y x : ℝ) :
    sqd (py : EReal) px y x = (((py - y) * (py - y) + (px - x) * (px - x) : ℝ) : EReal) := by
  simp only [sqd, EReal.coe_sub, EReal.coe_mul, EReal.coe_add]

/-- For a positive squared distance the two exponents agree, whatever the width: off `σ² = 0` both are
    the real `-d²/σ²`, at `σ² = 0` both are `-∞`. -/
theorem expo_eq (q s : ℝ) (h : 0 < q) :
    (0 - (q : EReal)) * Ideal.div 1 ((s : EReal) * s) = Ideal.div (-(q : EReal)) ((s : EReal) * s) := by
  rw [sub_eq_add_neg, zero_add, ← EReal.coe_mul, ← EReal.coe_neg]
  by_cases hs : s * s = 0
  · rw [hs, EReal.coe_zero, Ideal.div, if_pos rfl, if_pos (by norm_num), Ideal.div, if_pos rfl,
      if_neg (by exact_mod_cast (not_lt.2 (neg_nonpos.2 h.le))), EReal.coe_mul_top_of_neg (neg_lt_zero.2 h)]
  · rw [Ideal.div_coe hs, Ideal.div_coe hs, one_mul]

/-- For a positive squared distance the two weights agree. -/
theorem str_eq_of_pos (py px y x tau sg : ℝ) (h : 0 < (py - y) * (py - y) + (px - x) * (px - x)) :
    strK (py : EReal) px y x tau sg = strR py px y x tau sg := by
  unfold strK strR
  rw [sqd_coe]
  have hs : Real.sqrt ((py - y) * (py - y) + (px - x) * (px - x)) ≠ 0 := (Real.sqrt_pos.2 h).ne'
  rw [Ideal.rsqrt_coe, if_neg (not_lt.2 h.le), if_neg h.ne', Ideal.sqrt_coe, if_neg (not_lt.2 h.le),
    Ideal.div_coe hs, one_div, expo_eq _ _ h]

/-- A sum of two real squares that is not positive has both roots zero. -/
theorem both_zero (a b : ℝ) (h : ¬ 0 < a * a + b * b) : a = 0 ∧ b = 0 := by
  have ha := mul_self_nonneg a
  have hb := mul_self_nonneg b
  have h0 : a * a + b * b = 0 := le_antisymm (not_lt.1 h) (add_nonneg ha hb)
  constructor
  · exact mul_self_eq_zero.1 (by linarith)
  · exact mul_self_eq_zero.1 (by linarith)

/-- On real arguments the kernel's and the reference's contributions are one number: where the squared
    distance is positive the weights agree; where it is zero both displacements are zero, and a product
    with zero is zero on the extended reals whatever the weight. -/
theorem term_eq (ch : ℕ) (py px y x tau sg : ℝ) :
    termK ch (py : EReal) px y x tau sg = termR ch py px y x tau sg := by
  unfold termK termR
  by_cases h : 0 < (py - y) * (py - y) + (px - x) * (px - x)
  · rw [str_eq_of_pos _ _ _ _ _ _ h, sub_eq_add_neg (0 : EReal), zero_add]
  · obtain ⟨hy, hx⟩ := both_zero _ _ h
    have ey : (py : EReal) - y = 0 := by rw [← EReal.coe_sub, hy, EReal.coe_zero]
    have ex : (px : EReal) - x = 0 := by rw [← EReal.coe_sub, hx, EReal.coe_zero]
    simp only [ey, ex, sub_zero, neg_zero, mul_zero]

end Cert.Falloff

end
-- ==== Proof.Spec.lean ====
/-
  The velocity field as ONE function of the two argument arrays.  The table `vf` holds, for each of two
  batches and 512 vortices, six numbers of which the first four are read: the vortex's coordinates
  `(y, x)`, its strength and its width.  The array `pts` holds, for each batch and each pixel of a
  256 × 256 image, the pixel's coordinates `(py, px)`.  The result at `(b, h, w, ch)` is the sum over
  the 512 vortices of batch `b` of that vortex's contribution to channel `ch` at the pixel.
  `outK` sums the kernel's spelling of a contribution, `outR` the reference's; on arrays of real
  numbers they are the same array.
-/
import proofs.«100488_j83434034692733_2_alg».proof.Proof.TermLaw
import Idealize.ShloMosaic.Lib.ValueIdx

noncomputable section

namespace Cert.Falloff

open Idealize.ShloMosaic Idealize.ShloMosaic.ValueIdx

/-- The vortex table's shape and the image's. -/
abbrev TblShape : Shape := ⟨3, ![2, 512, 6]⟩
abbrev PtsShape : Shape := ⟨4, ![2, 256, 256, 2]⟩

/-- The sum of the kernel's contributions. -/
def outK (vf : TblShape.Idx → EReal) (pts : PtsShape.Idx → EReal) (i : PtsShape.Idx) : EReal :=
  ∑ n : Fin 512, termK (i 3).val (pts (ix4 (i 0) (i 1) (i 2) (0 : Fin 2))) (pts (ix4 (i 0) (i 1) (i 2) (1 : Fin 2)))
    (vf (ix3 (i 0) n (0 : Fin 6))) (vf (ix3 (i 0) n (1 : Fin 6))) (vf (ix3 (i 0) n (2 : Fin 6))) (vf (ix3 (i 0) n (3 : Fin 6)))

/-- The sum of the reference's contributions. -/
def outR (vf : TblShape.Idx → EReal) (pts : PtsShape.Idx → EReal) (i : PtsShape.Idx) : EReal :=
  ∑ n : Fin 512, termR (i 3).val (pts (ix4 (i 0) (i 1) (i 2) (0 : Fin 2))) (pts (ix4 (i 0) (i 1) (i 2) (1 : Fin 2)))
    (vf (ix3 (i 0) n (0 : Fin 6))) (vf (ix3 (i 0) n (1 : Fin 6))) (vf (ix3 (i 0) n (2 : Fin 6))) (vf (ix3 (i 0) n (3 : Fin 6)))

/-- On arrays whose every entry is a real number the two sums agree, term by term. -/
theorem out_eq (vf : TblShape.Idx → EReal) (pts : PtsShape.Idx → EReal)
    (hvf : ∀ j, ∃ r : ℝ, vf j = (r : EReal)) (hpts : ∀ j, ∃ r : ℝ, pts j = (r : EReal)) :
    outK vf pts = outR vf pts := by
  funext i
  unfold outK outR
  refine Finset.sum_congr rfl fun n _ => ?_
  obtain ⟨a0, h0⟩ := hpts (ix4 (i 0) (i 1) (i 2) (0 : Fin 2))
  obtain ⟨a1, h1⟩ := hpts (ix4 (i 0) (i 1) (i 2) (1 : Fin 2))
  obtain ⟨b0, g0⟩ := hvf (ix3 (i 0) n (0 : Fin 6))
  obtain ⟨b1, g1⟩ := hvf (ix3 (i 0) n (1 : Fin 6))
  obtain ⟨b2, g2⟩ := hvf (ix3 (i 0) n (2 : Fin 6))
  obtain ⟨b3, g3⟩ := hvf (ix3 (i 0) n (3 : Fin 6))
  rw [h0, h1, g0, g1, g2, g3]
  exact term_eq _ _ _ _ _ _ _

end Cert.Falloff

end
-- ==== Proof.LibRealEntries.lean ====
/-
  General lemmas for reading a "finite input" precondition on the extended reals.

  A float input's finiteness test is |x| < +∞ with |x| = max x (−x) and +∞ the float word 0x7F800000. On the extended
  reals the maximum is +∞ exactly at the two infinities, so a passing test says x is a real number.

  * `top_word`: the f32 word 0x7F800000 is the top element.
  * `real_of_abs_lt`: if the comparison max x (−x) < +∞ comes out true, x is the coercion of a real.
-/
import Idealize.ShloMosaic.PureOps.Ideal

noncomputable section

namespace Cert.RealEntries

open Idealize.ShloMosaic

/-- The float word of +∞ is the extended reals' top element. -/
theorem top_word : Ideal.ofBits .f32 0x7F800000#32 = (⊤ : EReal) := by simp [Ideal.ofBits, Ideal.ieee]

/-- An extended real whose absolute value max x (−x) is strictly below +∞ is a real number: at either infinity the
    maximum is +∞ itself. -/
theorem real_of_abs_lt (x : EReal) (h : Ideal.cmp .olt (max x (-x)) (Ideal.ofBits .f32 0x7F800000#32) = 1#1) :
    ∃ r : ℝ, x = (r : EReal) := by
  rw [top_word] at h
  have h' : max x (-x) < ⊤ := by
    by_contra hn
    simp [Ideal.cmp, hn] at h
  induction x using EReal.rec with
  | bot => simp at h'
  | coe r => exact ⟨r, rfl⟩
  | top => simp at h'

end Cert.RealEntries

end
-- ==== Proof.FiniteEntries.lean ====
/-
  From the finiteness precondition to "every entry of both argument arrays is a real number".

  The precondition is, for each of the two arrays, the conjunction over all entries of the test |x| < +∞ (with
  |x| = max x (−x) and +∞ the float word 0x7F800000), and then the conjunction of the two results. A conjunction that
  comes out true has every conjunct true, so every entry passes the test; on the extended reals an entry passing the
  test is the coercion of a real.
-/
import proofs.«100488_j83434034692733_2_alg».proof.Pre_finite_inputs
import proofs.«100488_j83434034692733_2_alg».proof.Proof.LibRealEntries
import Idealize.ShloMosaic.Lib.ReduceAll
import Idealize.ShloMosaic.Lib.ValueIdx
import Idealize.ShloMosaic.Lib.IdealHost

noncomputable section

namespace Cert.Falloff.Finite

open Idealize.ShloMosaic Idealize.ShloMosaic.ValueIdx

/-- The scalar shape has exactly one index. -/
instance subsingleton_scalar_idx : Subsingleton Cert.Pre_finite_inputs.S_.Idx :=
  ⟨fun a b => funext fun d => d.elim0⟩

/-- If the precondition holds, every entry of both argument arrays is a real number: the predicate is the conjunction,
    over the two arrays, of "all entries satisfy |x| < +∞", and an extended real with |x| < +∞ is a real. -/
theorem real_entries [Cert.Pre_finite_inputs.Facts]
    (x0 : FVec Ideal Cert.Pre_finite_inputs.S2x512x6 .f32)
    (x1 : FVec Ideal Cert.Pre_finite_inputs.S2x256x256x2 .f32)
    (h : Cert.Pre_finite_inputs.fn (F := Ideal) x0 x1 = fun _ => 1#1) :
    (∀ j, ∃ r : ℝ, x0 j = (r : EReal)) ∧ (∀ j, ∃ r : ℝ, x1 j = (r : EReal)) := by
  have h0 := congrFun h ix0
  dsimp only [Cert.Pre_finite_inputs.fn] at h0
  obtain ⟨ha, hb⟩ := IntOp.andi_eq_one.1 h0
  refine ⟨fun j => ?_, fun j => ?_⟩
  · have e := Host.reduce_andi_all _ _ _ _ _ ha j
    rw [cmpf_apply, broadcastInDim_scalar_apply] at e
    exact Cert.RealEntries.real_of_abs_lt (x0 j) e
  · have e := Host.reduce_andi_all _ _ _ _ _ hb j
    rw [cmpf_apply, broadcastInDim_scalar_apply] at e
    exact Cert.RealEntries.real_of_abs_lt (x1 j) e

end Cert.Falloff.Finite

end
-- ==== Proof.BodyValue.lean ====
/-
  The kernel body's arithmetic read at one entry.  Inside one trip of the chunk loop the body holds a
  32 × 256 tile of pixel rows `py`, `px` and four 128-wide rows of the vortex table (`y`, `x`, strength,
  width).  Every pixel value is spread along the 128 lanes, every table value over the 32 × 256 tile,
  and the pointwise chain computes, at `(p, q, j)`, the kernel's weight of vortex `j` at pixel `(p, q)`;
  a lane sum then adds the 128 contributions of the chunk to the running total.
-/
import proofs.«100488_j83434034692733_2_alg».proof.Proof.Gen.KernelIdeal.Skeleton
import proofs.«100488_j83434034692733_2_alg».proof.Proof.TermLaw
import Idealize.ShloMosaic.Lib.ValueIdx
import Idealize.ShloMosaic.Lib.Pipeline.Value
import Idealize.ShloMosaic.PureOps.Ideal.Laws

noncomputable section

namespace Cert.Falloff.Body

open Idealize.ShloMosaic Idealize.ShloMosaic.ValueIdx Cert.KernelIdeal Cert.KernelIdeal.Gen

/-- The pointwise exponential and reciprocal square root at an entry. -/
theorem exp_apply {s : Shape} {φ : FTy} (a : FVec Ideal s φ) (i : s.Idx) : Idealize.ShloMosaic.exp a i = Ideal.exp (a i) := rfl
theorem rsqrt_apply {s : Shape} {φ : FTy} (a : FVec Ideal s φ) (i : s.Idx) : Idealize.ShloMosaic.rsqrt a i = Ideal.rsqrt (a i) := rfl

/-- A 32 × 256 tile recast as 32 × 256 × 1 and spread along 128 lanes reads, at `(p, q, j)`, the tile at `(p, q)`. -/
theorem pix_apply (v : FVec Ideal S32x256 .f32) (p : Fin 32) (q : Fin 256) (j : Fin 128) :
    broadcastTo S32x256x128 (shapeCast S32x256x1 v shapeCasts_S32x256_S32x256x1) broadcasts_S32x256x1_S32x256x128 (ix3 p q j)
      = v (ix2 p q) := by
  rw [broadcastTo_apply _ _ (ix3 p q j) (ix3 p q (0 : Fin 1)) (fun a => match a with
      | ⟨0, _⟩ => rfl | ⟨1, _⟩ => rfl | ⟨2, _⟩ => rfl),
    shapeCast_apply _ _ (ix3 p q (0 : Fin 1)) (ix2 p q) (by
      rewrite [Shape.rowMajor_val_three, Shape.rowMajor_val_two]
      show p.val * 256 + q.val = (p.val * 256 + q.val) * 1 + 0
      omega)]

/-- A 128-vector recast as a 1 × 1 × 128 row and spread over the tile reads, at `(p, q, j)`, the vector at `j`. -/
theorem lane_apply (u : FVec Ideal S128 .f32) (p : Fin 32) (q : Fin 256) (j : Fin 128) :
    broadcastTo S32x256x128 (shapeCast S1x1x128 u shapeCasts_S128_S1x1x128) broadcasts_S1x1x128_S32x256x128 (ix3 p q j)
      = u (ix1 j) := by
  rw [broadcastTo_apply _ _ (ix3 p q j) (ix3 (0 : Fin 1) (0 : Fin 1) j) (fun a => match a with
      | ⟨0, _⟩ => rfl | ⟨1, _⟩ => rfl | ⟨2, _⟩ => rfl),
    shapeCast_apply _ _ (ix3 (0 : Fin 1) (0 : Fin 1) j) (ix1 j) (by
      rewrite [Shape.rowMajor_val_three, Shape.rowMajor_val_one]
      show j.val = ((0 : Fin 1).val * 1 + (0 : Fin 1).val) * 128 + j.val
      simp)]

/-- A loaded 1 × 1 × 128 row recast as a 128-vector reads, at `j`, the row at `(0, 0, j)`. -/
theorem unrow_apply (r : Vec Ideal S1x1x128 .f32) (j : Fin 128) :
    shapeCast S128 r shapeCasts_S1x1x128_S128 (ix1 j) = r (ix3 (0 : Fin 1) (0 : Fin 1) j) :=
  shapeCast_apply _ _ (ix1 j) (ix3 (0 : Fin 1) (0 : Fin 1) j) (by
    rewrite [Shape.rowMajor_val_three, Shape.rowMajor_val_one]
    show ((0 : Fin 1).val * 1 + (0 : Fin 1).val) * 128 + j.val = j.val
    simp)

/-- The displacement along the first coordinate: pixel minus vortex. -/
theorem pay8_apply (v1 : FVec Ideal S32x256 .f32) (v17 : Vec Ideal S1x1x128 .f32) (p : Fin 32) (q : Fin 256) (j : Fin 128) :
    k0_pay8 v1 v17 (ix3 p q j) = v1 (ix2 p q) - v17 (ix3 (0 : Fin 1) (0 : Fin 1) j) := by
  unfold k0_pay8
  rw [subf_apply, pix_apply, lane_apply, unrow_apply]

/-- The displacement along the second coordinate. -/
theorem pay9_apply (v3 : FVec Ideal S32x256 .f32) (v20 : Vec Ideal S1x1x128 .f32) (p : Fin 32) (q : Fin 256) (j : Fin 128) :
    k0_pay9 v3 v20 (ix3 p q j) = v3 (ix2 p q) - v20 (ix3 (0 : Fin 1) (0 : Fin 1) j) := by
  unfold k0_pay9
  rw [subf_apply, pix_apply, lane_apply, unrow_apply]

/-- The negated first displacement, as the body spells it: zero minus it. -/
theorem pay12_apply (v1 : FVec Ideal S32x256 .f32) (v17 : Vec Ideal S1x1x128 .f32) (p : Fin 32) (q : Fin 256) (j : Fin 128) :
    k0_pay12 v1 v17 (ix3 p q j) = 0 - (v1 (ix2 p q) - v17 (ix3 (0 : Fin 1) (0 : Fin 1) j)) := by
  unfold k0_pay12
  rw [subf_apply, pay8_apply, broadcast_apply]
  show Ideal.ofBits .f32 0x00000000#32 - _ = _
  rw [Ideal.ofBits_zero_f32]

/-- The weight of vortex `j` of the chunk at pixel `(p, q)`. -/
theorem pay10_apply (v1 v3 : FVec Ideal S32x256 .f32) (v17 v20 v23 v26 : Vec Ideal S1x1x128 .f32)
    (p : Fin 32) (q : Fin 256) (j : Fin 128) :
    k0_pay10 v1 v3 v17 v20 v23 v26 (ix3 p q j)
      = strK (v1 (ix2 p q)) (v3 (ix2 p q)) (v17 (ix3 (0 : Fin 1) (0 : Fin 1) j)) (v20 (ix3 (0 : Fin 1) (0 : Fin 1) j))
          (v23 (ix3 (0 : Fin 1) (0 : Fin 1) j)) (v26 (ix3 (0 : Fin 1) (0 : Fin 1) j)) := by
  unfold k0_pay10
  simp only [mulf_apply, subf_apply, addf_apply, divf_apply, broadcast_apply, exp_apply, rsqrt_apply, pay8_apply, pay9_apply,
    lane_apply, unrow_apply]
  show _ * (Ideal.exp ((Ideal.ofBits .f32 0x00000000#32 - _) * Ideal.div (Ideal.ofBits .f32 0x3F800000#32) _) * _) = _
  rw [Ideal.ofBits_zero_f32, ofBits_one_f32, unrow_apply v23, unrow_apply v26]
  rfl

/-- The lane sum of a 32 × 256 × 128 array from zero, at `(p, q)`: the plain sum over the 128 lanes. -/
theorem lane_sum (src : FVec Ideal S32x256x128 .f32) (hφ : FKind.Formats .f32)
    (hacc : (0x00000000#32 : BitVec 32) = 0x00000000#32) (p : Fin 32) (q : Fin 256) :
    multiReduction .add [2] S32x256 src 0x00000000#32 reduces_S32x256x128_S32x256 hφ hacc (ix2 p q)
      = ∑ j : Fin 128, src (ix3 p q j) := by
  refine (Ideal.multiReduction_add_single src 0x00000000#32 reduces_S32x256x128_S32x256 hφ hacc (ix2 p q)).trans ?_
  refine Finset.sum_congr rfl fun j _ => congrArg src ?_
  exact funext fun a => Fin.ext (match a with | ⟨0, _⟩ => rfl | ⟨1, _⟩ => rfl | ⟨2, _⟩ => rfl)

/-- One trip's update of the first running total at `(p, q)`: the total so far plus the chunk's 128 contributions to channel 0. -/
theorem pay11_apply (v1 v3 arg6 : FVec Ideal S32x256 .f32) (v17 v20 v23 v26 : Vec Ideal S1x1x128 .f32)
    (p : Fin 32) (q : Fin 256) :
    k0_pay11 v1 v3 arg6 v17 v20 v23 v26 (ix2 p q)
      = arg6 (ix2 p q) + ∑ j : Fin 128, termK 0 (v1 (ix2 p q)) (v3 (ix2 p q)) (v17 (ix3 (0 : Fin 1) (0 : Fin 1) j))
          (v20 (ix3 (0 : Fin 1) (0 : Fin 1) j)) (v23 (ix3 (0 : Fin 1) (0 : Fin 1) j)) (v26 (ix3 (0 : Fin 1) (0 : Fin 1) j)) := by
  unfold k0_pay11
  rw [addf_apply, lane_sum]
  refine congrArg (arg6 (ix2 p q) + ·) (Finset.sum_congr rfl fun j _ => ?_)
  rw [mulf_apply, pay10_apply, pay9_apply]
  rfl

/-- One trip's update of the second running total at `(p, q)`: the total so far plus the chunk's 128 contributions to channel 1. -/
theorem pay5_apply (v1 v3 arg7 : FVec Ideal S32x256 .f32) (v17 v20 v23 v26 : Vec Ideal S1x1x128 .f32)
    (p : Fin 32) (q : Fin 256) :
    k0_pay5 arg7 (k0_pay10 v1 v3 v17 v20 v23 v26) (k0_pay12 v1 v17) (ix2 p q)
      = arg7 (ix2 p q) + ∑ j : Fin 128, termK 1 (v1 (ix2 p q)) (v3 (ix2 p q)) (v17 (ix3 (0 : Fin 1) (0 : Fin 1) j))
          (v20 (ix3 (0 : Fin 1) (0 : Fin 1) j)) (v23 (ix3 (0 : Fin 1) (0 : Fin 1) j)) (v26 (ix3 (0 : Fin 1) (0 : Fin 1) j)) := by
  unfold k0_pay5
  rw [addf_apply, lane_sum]
  refine congrArg (arg7 (ix2 p q) + ·) (Finset.sum_congr rfl fun j _ => ?_)
  rw [mulf_apply, pay10_apply, pay12_apply]
  rfl

end Cert.Falloff.Body

end
-- ==== Proof.LibChunkSum.lean ====
/-
  A sum over `a * n` consecutive indices, cut into `a` chunks of `n`.

  In a commutative additive monoid the sum over `Fin (a * n)` is the sum over the chunks `c < a` of the sums over the
  positions `j < n` inside a chunk, position `j` of chunk `c` being index `n * c + j`. Only commutativity and
  associativity of addition are used, so the statement holds on the extended reals at the infinities too. The
  four-chunk corollary is the form a running total takes: start at zero, add the first chunk's sum, then the
  second's, the third's and the fourth's.
-/
import Mathlib.Algebra.BigOperators.Fin
import Mathlib.Logic.Equiv.Fin.Basic

namespace Cert.LibChunkSum

variable {M : Type*} [AddCommMonoid M]

/-- The sum over `Fin (a * n)` chunk by chunk: `col c j` is any spelling of index `n * c + j`. -/
theorem sum_chunks (a n : ℕ) (T : Fin (a * n) → M) (col : Fin a → Fin n → Fin (a * n))
    (hcol : ∀ c j, (col c j).val = n * c.val + j.val) :
    ∑ i, T i = ∑ c : Fin a, ∑ j : Fin n, T (col c j) := by
  rw [← Equiv.sum_comp finProdFinEquiv T, Fintype.sum_prod_type]
  refine Finset.sum_congr rfl fun c _ => Finset.sum_congr rfl fun j _ => congrArg T (Fin.ext ?_)
  rw [hcol]
  show j.val + n * c.val = n * c.val + j.val
  exact Nat.add_comm _ _

/-- A running total over four chunks, started at zero, is the whole sum. -/
theorem running_four (n : ℕ) (T : Fin (4 * n) → M) (col : Fin 4 → Fin n → Fin (4 * n))
    (hcol : ∀ c j, (col c j).val = n * c.val + j.val) :
    (((0 + ∑ j : Fin n, T (col 0 j)) + ∑ j : Fin n, T (col 1 j)) + ∑ j : Fin n, T (col 2 j)) + ∑ j : Fin n, T (col 3 j)
      = ∑ i, T i := by
  rw [sum_chunks 4 n T col hcol, Fin.sum_univ_four, zero_add]

end Cert.LibChunkSum
-- ==== Proof.LoopValue.lean ====
/-
  The chunk loop read as a sum.  The loop runs four trips; trip `k` loads lanes `128 k … 128 k + 127` of the four
  rows of the vortex table and adds, to each of two 32 × 256 running totals, the lane sum of that chunk's 128
  contributions.  Started at zero, the totals after the fourth trip are the sums over all 512 vortices: a sum
  taken chunk by chunk is the whole sum, by commutativity and associativity of addition alone.
-/
import proofs.«100488_j83434034692733_2_alg».proof.Proof.Gen.KernelIdeal.Frame
import proofs.«100488_j83434034692733_2_alg».proof.Proof.BodyValue
import proofs.«100488_j83434034692733_2_alg».proof.Proof.LibChunkSum
import Idealize.ShloMosaic.Lib.Pipeline.Value
import Idealize.ShloMosaic.Lib.Tactic

set_option maxRecDepth 16384

noncomputable section

namespace Cert.Falloff.Loop

open Idealize.ShloMosaic Idealize.ShloMosaic.ValueIdx Idealize.ShloMosaic.TcCoe Idealize.SL.Sem
open Cert.KernelIdeal Cert.KernelIdeal.Gen

section AnyF

variable {F : FTy → Type} [FloatOps F]

/-- The four rows trip `k` loads from the table's staging buffer holding `X`. -/
def rowY (arg3 : Memref sig .tc .vmem S1x4x512 .f32) (X : BufTy.Contents (Elt F) arg3.view.ty) (k : Fin k0_t1_loop.trips) :=
  View.readAt (Elt F) arg3.view (Rect.unit (s := S1x4x512) (k0_off1 k) S1x1x128.size (k0_off1_inb k)).toLoadRect X
def rowX (arg3 : Memref sig .tc .vmem S1x4x512 .f32) (X : BufTy.Contents (Elt F) arg3.view.ty) (k : Fin k0_t1_loop.trips) :=
  View.readAt (Elt F) arg3.view (Rect.unit (s := S1x4x512) (k0_off2 k) S1x1x128.size (k0_off2_inb k)).toLoadRect X
def rowT (arg3 : Memref sig .tc .vmem S1x4x512 .f32) (X : BufTy.Contents (Elt F) arg3.view.ty) (k : Fin k0_t1_loop.trips) :=
  View.readAt (Elt F) arg3.view (Rect.unit (s := S1x4x512) (k0_off3 k) S1x1x128.size (k0_off3_inb k)).toLoadRect X
def rowS (arg3 : Memref sig .tc .vmem S1x4x512 .f32) (X : BufTy.Contents (Elt F) arg3.view.ty) (k : Fin k0_t1_loop.trips) :=
  View.readAt (Elt F) arg3.view (Rect.unit (s := S1x4x512) (k0_off4 k) S1x1x128.size (k0_off4_inb k)).toLoadRect X

/-- What one trip makes of the two running totals: the body's two update terms over the four rows it loads. -/
theorem trip_value (c : Dev nD) (i : grid0.Coords) (arg2 : Memref sig .tc .vmem S1x2x32x256 .f32) (harg2 : arg2.IsWhole)
    (arg3 : Memref sig .tc .vmem S1x4x512 .f32) (harg3 : arg3.IsWhole) (arg4 : Memref sig .tc .vmem S1x2x32x256 .f32)
    (harg4 : arg4.IsWhole) (v0 v2 : Vec F S1x1x32x256 .f32) (X : BufTy.Contents (Elt F) arg3.view.ty)
    (k : Fin k0_t1_loop.trips) (acc : FVec F S32x256 .f32 × FVec F S32x256 .f32) :
    tripR_k0_t1 (F := F) Variants.none c none i arg2 harg2 arg3 harg3 arg4 harg4 v0 v2 X k acc
      = (k0_pay11 (k0_pay1 v0) (k0_pay2 v2) acc.1 (rowY arg3 X k) (rowX arg3 X k) (rowT arg3 X k) (rowS arg3 X k),
         k0_pay5 acc.2 (k0_pay10 (k0_pay1 v0) (k0_pay2 v2) (rowY arg3 X k) (rowX arg3 X k) (rowT arg3 X k) (rowS arg3 X k))
           (k0_pay12 (k0_pay1 v0) (rowY arg3 X k))) := by
  unfold tripR_k0_t1 trip_k0_t1 rowY rowX rowT rowS
  dsimp only
  sl_unfold_run_names
  rfl

end AnyF

/-- The loop runs four trips. -/
theorem trips_four : k0_t1_loop.trips = 4 := by decide +kernel

/-- A row loaded at offset `(0, r, 128 k)` from a buffer read as `x1`, at lane `j`: the table block at `(0, r, 128 k + j)`. -/
theorem row_apply (arg3 : Memref sig .tc .vmem S1x4x512 .f32) (harg3 : arg3.IsWhole) (x1 : Vec Ideal S1x4x512 .f32)
    (off : Fin 3 → Nat) (inb : ∀ a, off a + S1x1x128.size a ≤ S1x4x512.size a) (r : Fin 4) (kk : ℕ)
    (hoff : off = ![0, r.val, 128 * kk]) (j : Fin 128) (hk : 128 * kk + j.val < 512) :
    View.readAt (Elt Ideal) arg3.view (Rect.unit (s := S1x4x512) off S1x1x128.size inb).toLoadRect (harg3.unread x1)
        (ix3 (0 : Fin 1) (0 : Fin 1) j)
      = x1 (ix3 (0 : Fin 1) r (⟨128 * kk + j.val, hk⟩ : Fin 512)) := by
  subst hoff
  rw [View.readAt_eq_ld, harg3.read_unread]
  refine congrArg x1 (funext fun a => Fin.ext ?_)
  match a with
  | ⟨0, _⟩ => rfl
  | ⟨1, _⟩ => show r.val + 1 * 0 = r.val; omega
  | ⟨2, _⟩ => show 128 * kk + 1 * j.val = 128 * kk + j.val; omega

/-- A running total that starts at zero and gains, at step `k` of four, the sum of `T` over chunk `k` of 128, ends at the sum of `T`. -/
theorem total_of_steps (A : ℕ → EReal) (T : Fin 512 → EReal) (h0 : A 0 = 0)
    (hs : ∀ k : Fin 4, A (k.val + 1) = A k.val + ∑ j : Fin 128, T ⟨128 * k.val + j.val, by have := k.isLt; have := j.isLt; omega⟩) :
    A 4 = ∑ n, T n := by
  have h4 : A 4 = A 3 + ∑ j : Fin 128, T ⟨128 * 3 + j.val, by have := j.isLt; omega⟩ := hs 3
  have h3 : A 3 = A 2 + ∑ j : Fin 128, T ⟨128 * 2 + j.val, by have := j.isLt; omega⟩ := hs 2
  have h2 : A 2 = A 1 + ∑ j : Fin 128, T ⟨128 * 1 + j.val, by have := j.isLt; omega⟩ := hs 1
  have h1 : A 1 = A 0 + ∑ j : Fin 128, T ⟨128 * 0 + j.val, by have := j.isLt; omega⟩ := hs 0
  rw [h4, h3, h2, h1, h0]
  exact Cert.LibChunkSum.running_four 128 (T : Fin (4 * 128) → EReal)
    (fun c j => ⟨128 * c.val + j.val, by have := c.isLt; have := j.isLt; omega⟩) (fun _ _ => rfl)

end Cert.Falloff.Loop

end
-- ==== Proof.PointValue.lean ====
/-
  What one grid point leaves in the output block.  The block is 1 × 2 × 32 × 256: channel `ch`, pixel row `p`
  of the 32 rows the point owns, pixel column `q`.  After the chunk loop the entry is the sum over all 512
  vortices of the block's batch of the kernel's contribution to channel `ch` at that pixel, the pixel's
  coordinates read from the point's block of the image and the vortex's numbers from its block of the table.
  The body stores the two running totals as the two channel slabs of the block; an entry of channel 0 lies in
  the first slab only, an entry of channel 1 in the second.
-/
import proofs.«100488_j83434034692733_2_alg».proof.Proof.Gen.KernelIdeal.Frame
import proofs.«100488_j83434034692733_2_alg».proof.Proof.TermLaw
import proofs.«100488_j83434034692733_2_alg».proof.Proof.BodyValue
import proofs.«100488_j83434034692733_2_alg».proof.Proof.LoopValue
import Idealize.ShloMosaic.Lib.ValueIdx
import Idealize.ShloMosaic.Lib.Pipeline.Value

set_option maxRecDepth 16384

noncomputable section

namespace Cert.Falloff.Point

open Idealize.ShloMosaic Idealize.ShloMosaic.ValueIdx Idealize.ShloMosaic.TcCoe Idealize.SL.Sem
open Cert.KernelIdeal Cert.KernelIdeal.Gen Cert.Falloff.Body Cert.Falloff.Loop

/-- A 32 × 256 total recast as a 1 × 1 × 32 × 256 slab reads, at `(0, 0, p, q)`, the total at `(p, q)`. -/
theorem pay6_apply (v : FVec Ideal S32x256 .f32) (p : Fin 32) (q : Fin 256) :
    k0_pay6 v (ix4 (0 : Fin 1) (0 : Fin 1) p q) = v (ix2 p q) := by
  unfold k0_pay6
  exact shapeCast_apply _ _ (ix4 (0 : Fin 1) (0 : Fin 1) p q) (ix2 p q) (by
    rewrite [Shape.rowMajor_val_two, Shape.rowMajor_val_four]
    show p.val * 256 + q.val = (((0 : Fin 1).val * 1 + (0 : Fin 1).val) * 32 + p.val) * 256 + q.val
    simp)

theorem pay7_apply (v : FVec Ideal S32x256 .f32) (p : Fin 32) (q : Fin 256) :
    k0_pay7 v (ix4 (0 : Fin 1) (0 : Fin 1) p q) = v (ix2 p q) := by
  unfold k0_pay7
  exact shapeCast_apply _ _ (ix4 (0 : Fin 1) (0 : Fin 1) p q) (ix2 p q) (by
    rewrite [Shape.rowMajor_val_two, Shape.rowMajor_val_four]
    show p.val * 256 + q.val = (((0 : Fin 1).val * 1 + (0 : Fin 1).val) * 32 + p.val) * 256 + q.val
    simp)

/-- A loaded 1 × 1 × 32 × 256 slab recast as a 32 × 256 tile reads, at `(p, q)`, the slab at `(0, 0, p, q)`. -/
theorem pay1_apply (v0 : Vec Ideal S1x1x32x256 .f32) (p : Fin 32) (q : Fin 256) :
    k0_pay1 v0 (ix2 p q) = v0 (ix4 (0 : Fin 1) (0 : Fin 1) p q) := by
  unfold k0_pay1
  exact shapeCast_apply _ _ (ix2 p q) (ix4 (0 : Fin 1) (0 : Fin 1) p q) (by
    rewrite [Shape.rowMajor_val_two, Shape.rowMajor_val_four]
    show (((0 : Fin 1).val * 1 + (0 : Fin 1).val) * 32 + p.val) * 256 + q.val = p.val * 256 + q.val
    simp)

theorem pay2_apply (v2 : Vec Ideal S1x1x32x256 .f32) (p : Fin 32) (q : Fin 256) :
    k0_pay2 v2 (ix2 p q) = v2 (ix4 (0 : Fin 1) (0 : Fin 1) p q) := by
  unfold k0_pay2
  exact shapeCast_apply _ _ (ix2 p q) (ix4 (0 : Fin 1) (0 : Fin 1) p q) (by
    rewrite [Shape.rowMajor_val_two, Shape.rowMajor_val_four]
    show (((0 : Fin 1).val * 1 + (0 : Fin 1).val) * 32 + p.val) * 256 + q.val = p.val * 256 + q.val
    simp)

/-- The channel slab loaded at offset `(0, ch, 0, 0)` from a buffer read as `x0`, at `(0, 0, p, q)`: the block at `(0, ch, p, q)`. -/
theorem chan_apply (arg2 : Memref sig .tc .vmem S1x2x32x256 .f32) (harg2 : arg2.IsWhole) (x0 : Vec Ideal S1x2x32x256 .f32)
    (off : Fin 4 → Nat) (inb : ∀ a, off a + S1x1x32x256.size a ≤ S1x2x32x256.size a) (ch : Fin 2)
    (hoff : off = ![0, ch.val, 0, 0]) (p : Fin 32) (q : Fin 256) :
    View.readAt (Elt Ideal) arg2.view (Rect.unit (s := S1x2x32x256) off S1x1x32x256.size inb).toLoadRect (harg2.unread x0)
        (ix4 (0 : Fin 1) (0 : Fin 1) p q)
      = x0 (ix4 (0 : Fin 1) ch p q) := by
  subst hoff
  rw [View.readAt_eq_ld, harg2.read_unread]
  refine congrArg x0 (funext fun a => Fin.ext ?_)
  match a with
  | ⟨0, _⟩ => rfl
  | ⟨1, _⟩ => show ch.val + 1 * 0 = ch.val; omega
  | ⟨2, _⟩ => show 0 + 1 * p.val = p.val; omega
  | ⟨3, _⟩ => show 0 + 1 * q.val = q.val; omega

section Totals

variable (c : Dev nD) (i : grid0.Coords) (arg2 : Memref sig .tc .vmem S1x2x32x256 .f32) (harg2 : arg2.IsWhole)
  (arg3 : Memref sig .tc .vmem S1x4x512 .f32) (harg3 : arg3.IsWhole) (arg4 : Memref sig .tc .vmem S1x2x32x256 .f32)
  (harg4 : arg4.IsWhole) (v0 v2 : Vec Ideal S1x1x32x256 .f32) (x1 : Vec Ideal S1x4x512 .f32)

/-- The two running totals before trip `n`, started at zero. -/
abbrev tot (n : ℕ) : FVec Ideal S32x256 .f32 × FVec Ideal S32x256 .f32 :=
  st_k0_t1 (F := Ideal) Variants.none c none i arg2 harg2 arg3 harg3 arg4 harg4 v0 v2 (harg3.unread x1) (k0_pay3, k0_pay4) n

/-- One trip, as the body's two update terms. -/
theorem tot_succ (k : Fin 4) :
    tot c i arg2 harg2 arg3 harg3 arg4 harg4 v0 v2 x1 (k.val + 1)
      = (k0_pay11 (k0_pay1 v0) (k0_pay2 v2) (tot c i arg2 harg2 arg3 harg3 arg4 harg4 v0 v2 x1 k.val).1
            (rowY arg3 (harg3.unread x1) (Fin.cast trips_four.symm k)) (rowX arg3 (harg3.unread x1) (Fin.cast trips_four.symm k))
            (rowT arg3 (harg3.unread x1) (Fin.cast trips_four.symm k)) (rowS arg3 (harg3.unread x1) (Fin.cast trips_four.symm k)),
         k0_pay5 (tot c i arg2 harg2 arg3 harg3 arg4 harg4 v0 v2 x1 k.val).2
            (k0_pay10 (k0_pay1 v0) (k0_pay2 v2)
              (rowY arg3 (harg3.unread x1) (Fin.cast trips_four.symm k)) (rowX arg3 (harg3.unread x1) (Fin.cast trips_four.symm k))
              (rowT arg3 (harg3.unread x1) (Fin.cast trips_four.symm k)) (rowS arg3 (harg3.unread x1) (Fin.cast trips_four.symm k)))
            (k0_pay12 (k0_pay1 v0) (rowY arg3 (harg3.unread x1) (Fin.cast trips_four.symm k)))) :=
  (st_k0_t1_succ (F := Ideal) Variants.none c none i arg2 harg2 arg3 harg3 arg4 harg4 v0 v2 (harg3.unread x1)
      (k0_pay3, k0_pay4) (Fin.cast trips_four.symm k)).trans
    (trip_value c i arg2 harg2 arg3 harg3 arg4 harg4 v0 v2 (harg3.unread x1) (Fin.cast trips_four.symm k) _)

/-- The four rows of chunk `k` at lane `j` are the table block's entries at vortex `128 k + j`. -/
theorem rows_apply (k : Fin 4) (j : Fin 128) (hk : 128 * k.val + j.val < 512) :
    rowY arg3 (harg3.unread x1) (Fin.cast trips_four.symm k) (ix3 (0 : Fin 1) (0 : Fin 1) j)
        = x1 (ix3 (0 : Fin 1) (0 : Fin 4) (⟨128 * k.val + j.val, hk⟩ : Fin 512))
    ∧ rowX arg3 (harg3.unread x1) (Fin.cast trips_four.symm k) (ix3 (0 : Fin 1) (0 : Fin 1) j)
        = x1 (ix3 (0 : Fin 1) (1 : Fin 4) (⟨128 * k.val + j.val, hk⟩ : Fin 512))
    ∧ rowT arg3 (harg3.unread x1) (Fin.cast trips_four.symm k) (ix3 (0 : Fin 1) (0 : Fin 1) j)
        = x1 (ix3 (0 : Fin 1) (2 : Fin 4) (⟨128 * k.val + j.val, hk⟩ : Fin 512))
    ∧ rowS arg3 (harg3.unread x1) (Fin.cast trips_four.symm k) (ix3 (0 : Fin 1) (0 : Fin 1) j)
        = x1 (ix3 (0 : Fin 1) (3 : Fin 4) (⟨128 * k.val + j.val, hk⟩ : Fin 512)) :=
  ⟨row_apply arg3 harg3 x1 _ _ (0 : Fin 4) k.val (k0_off1_eq _) j hk,
   row_apply arg3 harg3 x1 _ _ (1 : Fin 4) k.val (k0_off2_eq _) j hk,
   row_apply arg3 harg3 x1 _ _ (2 : Fin 4) k.val (k0_off3_eq _) j hk,
   row_apply arg3 harg3 x1 _ _ (3 : Fin 4) k.val (k0_off4_eq _) j hk⟩

/-- The first total after the four trips, at `(p, q)`: the sum over the 512 vortices of the contributions to channel 0. -/
theorem tot_fst (p : Fin 32) (q : Fin 256) :
    (tot c i arg2 harg2 arg3 harg3 arg4 harg4 v0 v2 x1 4).1 (ix2 p q)
      = ∑ n : Fin 512, termK 0 (v0 (ix4 (0 : Fin 1) (0 : Fin 1) p q)) (v2 (ix4 (0 : Fin 1) (0 : Fin 1) p q))
          (x1 (ix3 (0 : Fin 1) (0 : Fin 4) n)) (x1 (ix3 (0 : Fin 1) (1 : Fin 4) n)) (x1 (ix3 (0 : Fin 1) (2 : Fin 4) n))
          (x1 (ix3 (0 : Fin 1) (3 : Fin 4) n)) := by
  refine total_of_steps (fun n => (tot c i arg2 harg2 arg3 harg3 arg4 harg4 v0 v2 x1 n).1 (ix2 p q))
    (fun n => termK 0 (v0 (ix4 (0 : Fin 1) (0 : Fin 1) p q)) (v2 (ix4 (0 : Fin 1) (0 : Fin 1) p q))
          (x1 (ix3 (0 : Fin 1) (0 : Fin 4) n)) (x1 (ix3 (0 : Fin 1) (1 : Fin 4) n)) (x1 (ix3 (0 : Fin 1) (2 : Fin 4) n))
          (x1 (ix3 (0 : Fin 1) (3 : Fin 4) n))) ?_ ?_
  · show Ideal.ofBits .f32 0x00000000#32 = 0
    exact Ideal.ofBits_zero_f32
  · intro k
    show (tot c i arg2 harg2 arg3 harg3 arg4 harg4 v0 v2 x1 (k.val + 1)).1 (ix2 p q) = _
    rw [tot_succ]
    dsimp only
    rw [pay11_apply, pay1_apply, pay2_apply]
    refine congrArg (_ + ·) (Finset.sum_congr rfl fun j _ => ?_)
    obtain ⟨e1, e2, e3, e4⟩ := rows_apply arg3 harg3 x1 k j (by have := k.isLt; have := j.isLt; omega)
    rw [e1, e2, e3, e4]

/-- The second total after the four trips: the contributions to channel 1. -/
theorem tot_snd (p : Fin 32) (q : Fin 256) :
    (tot c i arg2 harg2 arg3 harg3 arg4 harg4 v0 v2 x1 4).2 (ix2 p q)
      = ∑ n : Fin 512, termK 1 (v0 (ix4 (0 : Fin 1) (0 : Fin 1) p q)) (v2 (ix4 (0 : Fin 1) (0 : Fin 1) p q))
          (x1 (ix3 (0 : Fin 1) (0 : Fin 4) n)) (x1 (ix3 (0 : Fin 1) (1 : Fin 4) n)) (x1 (ix3 (0 : Fin 1) (2 : Fin 4) n))
          (x1 (ix3 (0 : Fin 1) (3 : Fin 4) n)) := by
  refine total_of_steps (fun n => (tot c i arg2 harg2 arg3 harg3 arg4 harg4 v0 v2 x1 n).2 (ix2 p q))
    (fun n => termK 1 (v0 (ix4 (0 : Fin 1) (0 : Fin 1) p q)) (v2 (ix4 (0 : Fin 1) (0 : Fin 1) p q))
          (x1 (ix3 (0 : Fin 1) (0 : Fin 4) n)) (x1 (ix3 (0 : Fin 1) (1 : Fin 4) n)) (x1 (ix3 (0 : Fin 1) (2 : Fin 4) n))
          (x1 (ix3 (0 : Fin 1) (3 : Fin 4) n))) ?_ ?_
  · show Ideal.ofBits .f32 0x00000000#32 = 0
    exact Ideal.ofBits_zero_f32
  · intro k
    show (tot c i arg2 harg2 arg3 harg3 arg4 harg4 v0 v2 x1 (k.val + 1)).2 (ix2 p q) = _
    rw [tot_succ]
    dsimp only
    rw [pay5_apply, pay1_apply, pay2_apply]
    refine congrArg (_ + ·) (Finset.sum_congr rfl fun j _ => ?_)
    obtain ⟨e1, e2, e3, e4⟩ := rows_apply arg3 harg3 x1 k j (by have := k.isLt; have := j.isLt; omega)
    rw [e1, e2, e3, e4]

end Totals

/-- The loop's trip count, as the body's run spells it. -/
theorem trips_lit : Scf.trips (0#32) (Scalar.addi 0#32 4#32) 1#32 = 4 := by decide +kernel

section Out

variable (c : Dev nD) (i : grid0.Coords) (arg2 : Memref sig .tc .vmem S1x2x32x256 .f32) (harg2 : arg2.IsWhole)
  (arg3 : Memref sig .tc .vmem S1x4x512 .f32) (harg3 : arg3.IsWhole) (arg4 : Memref sig .tc .vmem S1x2x32x256 .f32)
  (harg4 : arg4.IsWhole) (x0 : Vec Ideal S1x2x32x256 .f32) (x1 : Vec Ideal S1x4x512 .f32)

/-- Channel 0 of the block: the second store's slab does not hold the entry, the first store's does. -/
theorem out_value0 (p : Fin 32) (q : Fin 256) :
    out0_A_2 (F := Ideal) c i arg2 harg2 arg3 harg3 arg4 harg4 x0 x1 (ix4 (0 : Fin 1) (0 : Fin 2) p q)
      = ∑ n : Fin 512, termK 0 (x0 (ix4 (0 : Fin 1) (0 : Fin 2) p q)) (x0 (ix4 (0 : Fin 1) (1 : Fin 2) p q))
          (x1 (ix3 (0 : Fin 1) (0 : Fin 4) n)) (x1 (ix3 (0 : Fin 1) (1 : Fin 4) n)) (x1 (ix3 (0 : Fin 1) (2 : Fin 4) n))
          (x1 (ix3 (0 : Fin 1) (3 : Fin 4) n)) := by
  unfold out0_A_2
  rw [View.read_writes_eq_canon _ _ _ (cover0_A_2 c i arg2 harg2 arg3 harg3 arg4 harg4 x0 x1)]
  unfold kernelRun0_A
  dsimp only
  rw [trips_lit]
  rw [View.canon_cons_of_not_mem _ _ (fun hm => by
    have hm' : ix4 (0 : Fin 1) (0 : Fin 2) p q
        ∈ (Rect.unit (s := S1x2x32x256) ![0, 1, 0, 0] ![1, 1, 32, 256] inb_S1x2x32x256_S1x1x32x256_0_1_0_0).set := hm
    have h := (Rect.mem_set_unit.mp hm') (1 : Fin 4)
    exact Nat.not_succ_le_zero 0 h.1)]
  have hemb : ix4 (0 : Fin 1) (0 : Fin 2) p q
      = (Rect.unit (s := S1x2x32x256) ![0, 0, 0, 0] ![1, 1, 32, 256] inb_S1x2x32x256_S1x1x32x256_0_0_0_0).emb
          (ix4 (0 : Fin 1) (0 : Fin 1) p q) :=
    funext fun a => Fin.ext (match a with
      | ⟨0, _⟩ => rfl
      | ⟨1, _⟩ => rfl
      | ⟨2, _⟩ => by show p.val = 0 + 1 * p.val; omega
      | ⟨3, _⟩ => by show q.val = 0 + 1 * q.val; omega)
  rw [hemb, View.canon_cons_emb, pay6_apply]
  refine (tot_fst c i arg2 harg2 arg3 harg3 arg4 harg4 _ _ x1 p q).trans ?_
  rw [chan_apply arg2 harg2 x0 ![0, 0, 0, 0] inb_S1x2x32x256_S1x1x32x256_0_0_0_0 (0 : Fin 2) rfl p q,
    chan_apply arg2 harg2 x0 ![0, 1, 0, 0] inb_S1x2x32x256_S1x1x32x256_0_1_0_0 (1 : Fin 2) rfl p q]
  rw [← hemb]

/-- Channel 1 of the block: the second store's slab holds the entry. -/
theorem out_value1 (p : Fin 32) (q : Fin 256) :
    out0_A_2 (F := Ideal) c i arg2 harg2 arg3 harg3 arg4 harg4 x0 x1 (ix4 (0 : Fin 1) (1 : Fin 2) p q)
      = ∑ n : Fin 512, termK 1 (x0 (ix4 (0 : Fin 1) (0 : Fin 2) p q)) (x0 (ix4 (0 : Fin 1) (1 : Fin 2) p q))
          (x1 (ix3 (0 : Fin 1) (0 : Fin 4) n)) (x1 (ix3 (0 : Fin 1) (1 : Fin 4) n)) (x1 (ix3 (0 : Fin 1) (2 : Fin 4) n))
          (x1 (ix3 (0 : Fin 1) (3 : Fin 4) n)) := by
  unfold out0_A_2
  rw [View.read_writes_eq_canon _ _ _ (cover0_A_2 c i arg2 harg2 arg3 harg3 arg4 harg4 x0 x1)]
  unfold kernelRun0_A
  dsimp only
  rw [trips_lit]
  have hemb : ix4 (0 : Fin 1) (1 : Fin 2) p q
      = (Rect.unit (s := S1x2x32x256) ![0, 1, 0, 0] ![1, 1, 32, 256] inb_S1x2x32x256_S1x1x32x256_0_1_0_0).emb
          (ix4 (0 : Fin 1) (0 : Fin 1) p q) :=
    funext fun a => Fin.ext (match a with
      | ⟨0, _⟩ => rfl
      | ⟨1, _⟩ => rfl
      | ⟨2, _⟩ => by show p.val = 0 + 1 * p.val; omega
      | ⟨3, _⟩ => by show q.val = 0 + 1 * q.val; omega)
  rw [hemb, View.canon_cons_emb, pay7_apply]
  refine (tot_snd c i arg2 harg2 arg3 harg3 arg4 harg4 _ _ x1 p q).trans ?_
  rw [chan_apply arg2 harg2 x0 ![0, 0, 0, 0] inb_S1x2x32x256_S1x1x32x256_0_0_0_0 (0 : Fin 2) rfl p q,
    chan_apply arg2 harg2 x0 ![0, 1, 0, 0] inb_S1x2x32x256_S1x1x32x256_0_1_0_0 (1 : Fin 2) rfl p q]
  rw [← hemb]

end Out

/-- What a grid point leaves in its output block at `(0, ch, p, q)`. -/
theorem out_value (c : Dev nD) (i : grid0.Coords) (arg2 : Memref sig .tc .vmem S1x2x32x256 .f32) (harg2 : arg2.IsWhole)
    (arg3 : Memref sig .tc .vmem S1x4x512 .f32) (harg3 : arg3.IsWhole) (arg4 : Memref sig .tc .vmem S1x2x32x256 .f32)
    (harg4 : arg4.IsWhole) (x0 : Vec Ideal S1x2x32x256 .f32) (x1 : Vec Ideal S1x4x512 .f32)
    (ch : Fin 2) (p : Fin 32) (q : Fin 256) :
    out0_A_2 (F := Ideal) c i arg2 harg2 arg3 harg3 arg4 harg4 x0 x1 (ix4 (0 : Fin 1) ch p q)
      = ∑ n : Fin 512, termK ch.val (x0 (ix4 (0 : Fin 1) (0 : Fin 2) p q)) (x0 (ix4 (0 : Fin 1) (1 : Fin 2) p q))
          (x1 (ix3 (0 : Fin 1) (0 : Fin 4) n)) (x1 (ix3 (0 : Fin 1) (1 : Fin 4) n)) (x1 (ix3 (0 : Fin 1) (2 : Fin 4) n))
          (x1 (ix3 (0 : Fin 1) (3 : Fin 4) n)) :=
  match ch with
  | ⟨0, _⟩ => out_value0 c i arg2 harg2 arg3 harg3 arg4 harg4 x0 x1 p q
  | ⟨1, _⟩ => out_value1 c i arg2 harg2 arg3 harg3 arg4 harg4 x0 x1 p q

end Cert.Falloff.Point

end
-- ==== Proof.KernelArray.lean ====
/-
  From "what one grid point leaves in its output block" to "what the program leaves in its result array".

  The program first rearranges its two arguments: the image (batch, row, column, channel) gets its channel axis moved in front
  of the two pixel axes, and the vortex table (batch, vortex, six numbers) gets its last two axes exchanged and is cut to the
  first four numbers. The grid has 2 × 8 points; point 8·b + h reads rows 32·h … 32·h + 31 of batch b of the image and batch
  b of the table, and writes the same rows of batch b of the result. One point leaves at (ch, p, q) of its block the sum over
  the 512 vortices of the contribution to channel ch at pixel (32·h + p, q). The sixteen blocks tile the result, so the
  region leaves ONE function of the rearranged arrays; the line after the region moves the channel axis back behind the pixel
  axes, and read through the two rearrangements the result at (b, row, column, ch) is the sum over the vortices of batch b of
  the contribution to channel ch at that pixel, as a function of the two arguments.
-/
import proofs.«100488_j83434034692733_2_alg».proof.Proof.PointValue
import proofs.«100488_j83434034692733_2_alg».proof.Proof.Spec
import Idealize.ShloMosaic.Lib.Pipeline.Value
import Idealize.ShloMosaic.Lib.Tactic

noncomputable section

namespace Cert.Falloff.KArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The image as the region finds it: the second argument with the channel axis moved in front of the two pixel axes. -/
theorem V_image (c : Dev nD) :
    (V m c main_v2 : S2x2x256x256.Idx → Ideal .f32)
      = transpose S2x2x256x256 [0, 3, 1, 2] (m ((c : Thread nD τ).loc main_arg1))
          Facts₀.transposes_S2x256x256x2_S2x2x256x256_0_3_1_2 := by
  show StableHlo.after hostOps0 (fun b => m (c, b)) (Proc.devRef .tc main_v2) = _
  after_results

/-- Entry (b, ch, p, q) of the image as the region finds it is entry (b, p, q, ch) of the second argument. -/
theorem V_image_apply (c : Dev nD) (b : Fin 2) (ch : Fin 2) (p q : Fin 256) :
    (V m c main_v2 : S2x2x256x256.Idx → Ideal .f32) (ix4 b ch p q)
      = (m ((c : Thread nD τ).loc main_arg1) : S2x256x256x2.Idx → Ideal .f32) (ix4 b p q ch) := by
  rw [V_image]
  refine transpose_apply _ _ _ _ _ fun a => ?_
  match a with
  | ⟨0, _⟩ => rfl
  | ⟨1, _⟩ => rfl
  | ⟨2, _⟩ => rfl
  | ⟨3, _⟩ => rfl

/-- The table as the region finds it: the first argument with its last two axes exchanged, cut to its first four rows. -/
theorem V_table (c : Dev nD) :
    (V m c main_v1 : S2x4x512.Idx → Ideal .f32)
      = extractStridedSlice S2x4x512 ![0, 0, 0]
          (transpose S2x6x512 [0, 2, 1] (m ((c : Thread nD τ).loc main_arg0)) Facts₀.transposes_S2x512x6_S2x6x512_0_2_1)
          Facts₀.slices_S2x6x512_S2x4x512_0_0_0 := by
  show StableHlo.after hostOps0 (fun b => m (c, b)) (Proc.devRef .tc main_v1) = _
  after_results

/-- Entry (b, k, n) of the table as the region finds it is entry (b, n, k) of the first argument. -/
theorem V_table_apply (c : Dev nD) (b : Fin 2) (k : Fin 4) (k' : Fin 6) (hk : k'.val = k.val) (n : Fin 512) :
    (V m c main_v1 : S2x4x512.Idx → Ideal .f32) (ix3 b k n)
      = (m ((c : Thread nD τ).loc main_arg0) : S2x512x6.Idx → Ideal .f32) (ix3 b n k') := by
  rw [V_table]
  refine (extractStridedSlice_apply _ _ _ _ (ix3 b k' n) fun a => ?_).trans ?_
  · match a with
    | ⟨0, _⟩ => show b.val = 0 + b.val; omega
    | ⟨1, _⟩ => show k'.val = 0 + k.val; omega
    | ⟨2, _⟩ => show n.val = 0 + n.val; omega
  · refine transpose_apply _ _ _ _ _ fun a => ?_
    match a with
    | ⟨0, _⟩ => rfl
    | ⟨1, _⟩ => rfl
    | ⟨2, _⟩ => rfl

/-- The block index maps over the grid: point t = 8·b + h reads block (b, 0, h, 0) of the image and block (b, 0, 0) of the
    table, and writes block (b, 0, h, 0) of the result. -/
theorem idx_facts : ∀ t : Fin cfg0.N,
    win0_2.index t (0 : Fin 4) = t.val / 8 ∧ win0_2.index t (1 : Fin 4) = 0
    ∧ win0_2.index t (2 : Fin 4) = t.val % 8 ∧ win0_2.index t (3 : Fin 4) = 0
    ∧ win0_0.index t (0 : Fin 4) = t.val / 8 ∧ win0_0.index t (1 : Fin 4) = 0
    ∧ win0_0.index t (2 : Fin 4) = t.val % 8 ∧ win0_0.index t (3 : Fin 4) = 0
    ∧ win0_1.index t (0 : Fin 3) = t.val / 8 ∧ win0_1.index t (1 : Fin 3) = 0 ∧ win0_1.index t (2 : Fin 3) = 0 :=
  (by decide +kernel : ∀ t : Fin grid0.N, _)

/-- Every block of the result is some point's. -/
theorem idx_onto : ∀ (b : Fin 2) (h : Fin 8), ∃ t : Fin cfg0.N, t.val = 8 * b.val + h.val :=
  (by decide +kernel : ∀ (b : Fin 2) (h : Fin 8), ∃ t : Fin grid0.N, t.val = 8 * b.val + h.val)

/-- What a point leaves at ANY index of its output block (the block's batch axis has one entry). -/
theorem point_eq (c : Dev nD) (i : grid0.Coords) (arg2 : Memref sig .tc .vmem S1x2x32x256 .f32) (harg2 : arg2.IsWhole)
    (arg3 : Memref sig .tc .vmem S1x4x512 .f32) (harg3 : arg3.IsWhole) (arg4 : Memref sig .tc .vmem S1x2x32x256 .f32)
    (harg4 : arg4.IsWhole) (x0 : Vec Ideal S1x2x32x256 .f32) (x1 : Vec Ideal S1x4x512 .f32) (j : S1x2x32x256.Idx) :
    out0_A_2 (F := Ideal) c i arg2 harg2 arg3 harg3 arg4 harg4 x0 x1 j
      = ∑ n : Fin 512, termK (j 1).val (x0 (ix4 (0 : Fin 1) (0 : Fin 2) (j 2) (j 3))) (x0 (ix4 (0 : Fin 1) (1 : Fin 2) (j 2) (j 3)))
          (x1 (ix3 (0 : Fin 1) (0 : Fin 4) n)) (x1 (ix3 (0 : Fin 1) (1 : Fin 4) n)) (x1 (ix3 (0 : Fin 1) (2 : Fin 4) n))
          (x1 (ix3 (0 : Fin 1) (3 : Fin 4) n)) := by
  have hj : j = ix4 (0 : Fin 1) (j 1) (j 2) (j 3) := by
    funext a
    match a with
    | ⟨0, _⟩ => exact Subsingleton.elim (α := Fin 1) _ _
    | ⟨1, _⟩ => rfl
    | ⟨2, _⟩ => rfl
    | ⟨3, _⟩ => rfl
  exact (congrArg (out0_A_2 (F := Ideal) c i arg2 harg2 arg3 harg3 arg4 harg4 x0 x1) hj).trans
    (Cert.Falloff.Point.out_value c i arg2 harg2 arg3 harg3 arg4 harg4 x0 x1 (j 1) (j 2) (j 3))

/-- The image block of point t = 8·b + h is rows 32·h … 32·h + 31 of batch b of the image. -/
theorem image_block (c : Dev nD) (t : Fin cfg0.N) (y : S1x2x32x256.Idx) (k : S2x2x256x256.Idx)
    (h0 : (k 0).val = t.val / 8) (h1 : (k 1).val = (y 1).val) (h2 : (k 2).val = 32 * (t.val % 8) + (y 2).val)
    (h3 : (k 3).val = (y 3).val) :
    (iblk m c 0 t : Vec Ideal S1x2x32x256 .f32) y = (V m c main_v2 : S2x2x256x256.Idx → Ideal .f32) k := by
  obtain ⟨-, -, -, -, e00, e01, e02, e03, -, -, -⟩ := idx_facts t
  unfold iblk
  rw [View.read_apply]
  show (V m c main_v2 : S2x2x256x256.Idx → Ideal .f32) _ = (V m c main_v2 : S2x2x256x256.Idx → Ideal .f32) k
  refine congrArg _ (funext fun a => Fin.ext ?_)
  have hy0 : (y 0).val < 1 := (y 0).isLt
  match a with
  | ⟨0, _⟩ => show win0_0.index t (0 : Fin 4) * 1 + 1 * (y 0).val = (k 0).val; omega
  | ⟨1, _⟩ => show win0_0.index t (1 : Fin 4) * 2 + 1 * (y 1).val = (k 1).val; omega
  | ⟨2, _⟩ => show win0_0.index t (2 : Fin 4) * 32 + 1 * (y 2).val = (k 2).val; omega
  | ⟨3, _⟩ => show win0_0.index t (3 : Fin 4) * 256 + 1 * (y 3).val = (k 3).val; omega

/-- The table block of point t = 8·b + h is batch b of the table. -/
theorem table_block (c : Dev nD) (t : Fin cfg0.N) (y : S1x4x512.Idx) (k : S2x4x512.Idx)
    (h0 : (k 0).val = t.val / 8) (h1 : (k 1).val = (y 1).val) (h2 : (k 2).val = (y 2).val) :
    (iblk m c 1 t : Vec Ideal S1x4x512 .f32) y = (V m c main_v1 : S2x4x512.Idx → Ideal .f32) k := by
  obtain ⟨-, -, -, -, -, -, -, -, e10, e11, e12⟩ := idx_facts t
  unfold iblk
  rw [View.read_apply]
  show (V m c main_v1 : S2x4x512.Idx → Ideal .f32) _ = (V m c main_v1 : S2x4x512.Idx → Ideal .f32) k
  refine congrArg _ (funext fun a => Fin.ext ?_)
  have hy0 : (y 0).val < 1 := (y 0).isLt
  match a with
  | ⟨0, _⟩ => show win0_1.index t (0 : Fin 3) * 1 + 1 * (y 0).val = (k 0).val; omega
  | ⟨1, _⟩ => show win0_1.index t (1 : Fin 3) * 4 + 1 * (y 1).val = (k 1).val; omega
  | ⟨2, _⟩ => show win0_1.index t (2 : Fin 3) * 512 + 1 * (y 2).val = (k 2).val; omega

/-- Equal arguments give equal contributions. -/
theorem termK_congr {ch ch' : ℕ} {a a' b b' y y' x x' u u' s s' : EReal} (hc : ch = ch') (ha : a = a') (hb : b = b')
    (hy : y = y') (hx : x = x') (hu : u = u') (hs : s = s') : termK ch a b y x u s = termK ch' a' b' y' x' u' s' := by
  subst hc ha hb hy hx hu hs; rfl

/-- The result of the region as one function of the image and the table it finds: at (b, ch, p, q) the sum over the 512
    vortices of batch b of the contribution to channel ch at pixel (p, q). -/
def G (img : S2x2x256x256.Idx → EReal) (tbl : S2x4x512.Idx → EReal) : S2x2x256x256.Idx → EReal := fun i =>
  ∑ n : Fin 512, termK (i 1).val (img (ix4 (i 0) (0 : Fin 2) (i 2) (i 3))) (img (ix4 (i 0) (1 : Fin 2) (i 2) (i 3)))
    (tbl (ix3 (i 0) (0 : Fin 4) n)) (tbl (ix3 (i 0) (1 : Fin 4) n)) (tbl (ix3 (i 0) (2 : Fin 4) n)) (tbl (ix3 (i 0) (3 : Fin 4) n))

/-- What point t writes back is block t of that function. -/
theorem flushed_eq (c : Dev nD) (t : Fin cfg0.N) :
    (dats m 0 c).flushed 2 t = ((cfg0.win 2).blk t).view.read (Elt Ideal) (G (V m c main_v2) (V m c main_v1)) := by
  show (cfg0.win 2).cut (grid0.coords t) ((dats m 0 c).after 2 t) = _
  rw [after0_2]
  unfold outsAt0
  obtain ⟨e20, e21, e22, e23, -, -, -, -, -, -, -⟩ := idx_facts t
  funext j
  refine (point_eq c (grid0.coords t) (ms0_0 t) (hs0_0 t) (ms0_1 t) (hs0_1 t) (ms0_2 t) (hs0_2 t) (iblk m c 0 t) (iblk m c 1 t) _).trans ?_
  show _ = G (V m c main_v2) (V m c main_v1) (((cfg0.win 2).blk t).view.emb j)
  unfold G
  have hj0 : (j 0).val < 1 := (j 0).isLt
  have k0 : ((((cfg0.win 2).blk t).view.emb j) 0).val = t.val / 8 := by
    show win0_2.index t (0 : Fin 4) * 1 + 1 * (j 0).val = _; omega
  have k1 : ((((cfg0.win 2).blk t).view.emb j) 1).val = (j 1).val := by
    show win0_2.index t (1 : Fin 4) * 2 + 1 * (j 1).val = _; omega
  have k2 : ((((cfg0.win 2).blk t).view.emb j) 2).val = 32 * (t.val % 8) + (j 2).val := by
    show win0_2.index t (2 : Fin 4) * 32 + 1 * (j 2).val = _; omega
  have k3 : ((((cfg0.win 2).blk t).view.emb j) 3).val = (j 3).val := by
    show win0_2.index t (3 : Fin 4) * 256 + 1 * (j 3).val = _; omega
  refine Finset.sum_congr rfl fun n _ => ?_
  refine termK_congr k1.symm ?_ ?_ ?_ ?_ ?_ ?_
  · exact image_block m c t _ _ k0 rfl k2 k3
  · exact image_block m c t _ _ k0 rfl k2 k3
  · exact table_block m c t _ _ k0 rfl rfl
  · exact table_block m c t _ _ k0 rfl rfl
  · exact table_block m c t _ _ k0 rfl rfl
  · exact table_block m c t _ _ k0 rfl rfl

/-- An index of the result array is in point t's block iff each coordinate is in the block's range on its axis. -/
theorem mem_blk (t : Fin cfg0.N) (i : S2x2x256x256.Idx) :
    i ∈ ((cfg0.win 2).blk t).view.set ↔ ∀ a : Fin 4, win0_2.index t a * S1x2x32x256.size a ≤ (i a).val
      ∧ (i a).val < win0_2.index t a * S1x2x32x256.size a + S1x2x32x256.size a := by
  show i ∈ ((View.whole main_v3).slice (win0_2.rect t)).set ↔ _
  rw [View.set_slice_whole, Rect.mem_set_unit]
  exact Iff.rfl

/-- The blocks tile the result array: entry (b, ch, r, col) is in the block of point 8·b + r / 32. -/
theorem cover (i : S2x2x256x256.Idx) :
    ∃ t : Fin cfg0.N, (cfg0.win 2).flush t = true ∧ i ∈ ((cfg0.win 2).blk t).view.set := by
  have hi0 : (i 0).val < 2 := (i 0).isLt
  have hi1 : (i 1).val < 2 := (i 1).isLt
  have hi2 : (i 2).val < 256 := (i 2).isLt
  have hi3 : (i 3).val < 256 := (i 3).isLt
  obtain ⟨t, ht⟩ := idx_onto ⟨(i 0).val, hi0⟩ ⟨(i 2).val / 32, by omega⟩
  have ht' : t.val = 8 * (i 0).val + (i 2).val / 32 := ht
  obtain ⟨e20, e21, e22, e23, -, -, -, -, -, -, -⟩ := idx_facts t
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 2 ≤ (i 1).val ∧ (i 1).val < win0_2.index t (1 : Fin 4) * 2 + 2; omega
  | ⟨2, _⟩ => show win0_2.index t (2 : Fin 4) * 32 ≤ (i 2).val ∧ (i 2).val < win0_2.index t (2 : Fin 4) * 32 + 32; omega
  | ⟨3, _⟩ => show win0_2.index t (3 : Fin 4) * 256 ≤ (i 3).val ∧ (i 3).val < win0_2.index t (3 : Fin 4) * 256 + 256; omega

/-- So the region leaves its result array holding that function of the image and the table. -/
theorem final (c : Dev nD) : (dats m 0 c).arrAt 2 cfg0.N = G (V m c main_v2) (V m c main_v1) :=
  (dats m 0 c).arrAt_eq_of_cover 2 (G (V m c main_v2) (V m c main_v1)) (fun t _ => flushed_eq m c t) cover

/-- The line after the region moves the channel axis of the region's result behind the two pixel axes. -/
theorem tail_eq (c : Dev nD) :
    (Pipeline.afterTail₀ cfgs (dats m) 0 (V0 m) [hostOps1] c main_v4 : S2x256x256x2.Idx → Ideal .f32)
      = transpose S2x256x256x2 [0, 2, 3, 1] (G (V m c main_v2) (V m c main_v1))
          Facts₀.transposes_S2x2x256x256_S2x256x256x2_0_2_3_1 := by
  unfold Pipeline.afterTail₀
  show StableHlo.after hostOps1 _ (Proc.devRef .tc main_v4) = _
  after_results
  exact congrArg (fun x => transpose S2x256x256x2 [0, 2, 3, 1] x Facts₀.transposes_S2x2x256x256_S2x256x256x2_0_2_3_1)
    ((Pipeline.withArrays_arr spec0 launch0.win.arr_inj c _ _ 2).trans (final m c))

/-- The program's result array is the sum of the kernel's contributions, as a function of the two argument arrays. -/
theorem result_eq (c : Dev nD) :
    (Pipeline.afterTail₀ cfgs (dats m) 0 (V0 m) [hostOps1] c main_v4 : S2x256x256x2.Idx → Ideal .f32)
      = Cert.Falloff.outK (m ((c : Thread nD τ).loc main_arg0)) (m ((c : Thread nD τ).loc main_arg1)) := by
  rw [tail_eq]
  funext i
  refine (transpose_apply _ _ _ i (ix4 (i 0) (i 3) (i 1) (i 2)) fun a => ?_).trans ?_
  · match a with
    | ⟨0, _⟩ => rfl
    | ⟨1, _⟩ => rfl
    | ⟨2, _⟩ => rfl
    | ⟨3, _⟩ => rfl
  · unfold G Cert.Falloff.outK
    refine Finset.sum_congr rfl fun n _ => ?_
    refine termK_congr rfl ?_ ?_ ?_ ?_ ?_ ?_
    · exact V_image_apply m c (i 0) (0 : Fin 2) (i 1) (i 2)
    · exact V_image_apply m c (i 0) (1 : Fin 2) (i 1) (i 2)
    · exact V_table_apply m c (i 0) (0 : Fin 4) (0 : Fin 6) rfl n
    · exact V_table_apply m c (i 0) (1 : Fin 4) (1 : Fin 6) rfl n
    · exact V_table_apply m c (i 0) (2 : Fin 4) (2 : Fin 6) rfl n
    · exact V_table_apply m c (i 0) (3 : Fin 4) (3 : Fin 6) rfl n

/-- The idealized kernel's run, read: it ends with its result array at the sum of the kernel's contributions over the
    launch contents of the two arguments, and the arguments unchanged. -/
theorem kernel_run : θ_run Cert.KernelIdeal.defs (onTc (τ := τ) (Cert.KernelIdeal.main (F := Ideal))) ⟨m, fun _ => 0, ρ⟩
    (fun r => ∀ c : Dev nD,
      r.2.mem ((c.tc : Thread nD τ).loc main_v4)
        = Cert.Falloff.outK (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run Cert.KernelIdeal.defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Falloff.KArray

end
-- ==== Proof.RefRead.lean ====
/-
  The reference program as one function of its two argument arrays, and that function read at an index.

  The program is a straight line of 47 array operations.  Each is written here as a definition
  whose body is that operation applied to the earlier definitions (`v0` … `v44`, the two constants
  `cst` and `cst_0`); `refTerm` is the last of them, the array the program returns.

  For a batch `b`, a pixel `(p, q)` and a channel `c` the returned array holds the sum over the 512
  vortices `n` of batch `b` of the vortex's weight at the pixel times one component of the
  displacement from the vortex to the pixel.  Every intermediate array is read at explicit
  coordinates, innermost stages first: the four table columns that are used (the vortex's two
  coordinates, its strength, its width); the displacement `pixel - vortex`, one component per value
  of the last axis; the squared distance, the sum of the two squared components; the weight
  `strength * (exp (-(d²) / width²) / √d²)`; the pair `(second component, minus the first
  component)` the weight multiplies; and last the sum over the vortices.  Put together, the
  returned array is `outR` of the two arguments.
-/
import proofs.«100488_j83434034692733_2_alg».proof.Proof.Spec
import proofs.«100488_j83434034692733_2_alg».proof.Proof.Gen.ReferenceIdeal
import Idealize.ShloMosaic.Lib.ValueIdx
import Idealize.ShloMosaic.Lib.Pipeline.Value
import Idealize.ShloMosaic.PureOps.Ideal.Laws

noncomputable section

namespace Cert.Falloff.RefRead

open Idealize.ShloMosaic Idealize.ShloMosaic.ValueIdx Cert.ReferenceIdeal

open Facts₀

/-! ## The program's operations, one definition each -/

section Stages
variable {F : FTy → Type} [FloatOps F]

def v0 (x0 : (⟨S2x512x6, .f32⟩ : BufTy).Contents (Elt F)) : (⟨S2x512x1, .f32⟩ : BufTy).Contents (Elt F) :=
  extractStridedSlice S2x512x1 ![0, 0, 0] (x0) slices_S2x512x6_S2x512x1_0_0_0
def v1 (x0 : (⟨S2x512x6, .f32⟩ : BufTy).Contents (Elt F)) : (⟨S2x512, .f32⟩ : BufTy).Contents (Elt F) :=
  shapeCast _ (v0 (F := F) x0) shapeCasts_S2x512x1_S2x512
def v2 (x0 : (⟨S2x512x6, .f32⟩ : BufTy).Contents (Elt F)) : (⟨S2x512x1, .f32⟩ : BufTy).Contents (Elt F) :=
  extractStridedSlice S2x512x1 ![0, 0, 1] (x0) slices_S2x512x6_S2x512x1_0_0_1
def v3 (x0 : (⟨S2x512x6, .f32⟩ : BufTy).Contents (Elt F)) : (⟨S2x512, .f32⟩ : BufTy).Contents (Elt F) :=
  shapeCast _ (v2 (F := F) x0) shapeCasts_S2x512x1_S2x512
def v4 (x0 : (⟨S2x512x6, .f32⟩ : BufTy).Contents (Elt F)) : (⟨S2x512x1, .f32⟩ : BufTy).Contents (Elt F) :=
  extractStridedSlice S2x512x1 ![0, 0, 2] (x0) slices_S2x512x6_S2x512x1_0_0_2
def v5 (x0 : (⟨S2x512x6, .f32⟩ : BufTy).Contents (Elt F)) : (⟨S2x512, .f32⟩ : BufTy).Contents (Elt F) :=
  shapeCast _ (v4 (F := F) x0) shapeCasts_S2x512x1_S2x512
def v6 (x0 : (⟨S2x512x6, .f32⟩ : BufTy).Contents (Elt F)) : (⟨S2x512x1, .f32⟩ : BufTy).Contents (Elt F) :=
  extractStridedSlice S2x512x1 ![0, 0, 3] (x0) slices_S2x512x6_S2x512x1_0_0_3
def v7 (x0 : (⟨S2x512x6, .f32⟩ : BufTy).Contents (Elt F)) : (⟨S2x512, .f32⟩ : BufTy).Contents (Elt F) :=
  shapeCast _ (v6 (F := F) x0) shapeCasts_S2x512x1_S2x512
def v8 (x0 : (⟨S2x512x6, .f32⟩ : BufTy).Contents (Elt F)) : (⟨S2x512x1, .f32⟩ : BufTy).Contents (Elt F) :=
  extractStridedSlice S2x512x1 ![0, 0, 4] (x0) slices_S2x512x6_S2x512x1_0_0_4
def v9 (x0 : (⟨S2x512x6, .f32⟩ : BufTy).Contents (Elt F)) : (⟨S2x512, .f32⟩ : BufTy).Contents (Elt F) :=
  shapeCast _ (v8 (F := F) x0) shapeCasts_S2x512x1_S2x512
def v10 (x0 : (⟨S2x512x6, .f32⟩ : BufTy).Contents (Elt F)) : (⟨S2x512x1, .f32⟩ : BufTy).Contents (Elt F) :=
  extractStridedSlice S2x512x1 ![0, 0, 5] (x0) slices_S2x512x6_S2x512x1_0_0_5
def v11 (x0 : (⟨S2x512x6, .f32⟩ : BufTy).Contents (Elt F)) : (⟨S2x512, .f32⟩ : BufTy).Contents (Elt F) :=
  shapeCast _ (v10 (F := F) x0) shapeCasts_S2x512x1_S2x512
def v12 (x0 : (⟨S2x512x6, .f32⟩ : BufTy).Contents (Elt F)) : (⟨S2x512x1, .f32⟩ : BufTy).Contents (Elt F) :=
  broadcastInDim S2x512x1 ![0, 1] bcast_S2x512_S2x512x1_0_1 (v1 (F := F) x0)
def v13 (x0 : (⟨S2x512x6, .f32⟩ : BufTy).Contents (Elt F)) : (⟨S2x512x1, .f32⟩ : BufTy).Contents (Elt F) :=
  broadcastInDim S2x512x1 ![0, 1] bcast_S2x512_S2x512x1_0_1 (v3 (F := F) x0)
def v14 (x0 : (⟨S2x512x6, .f32⟩ : BufTy).Contents (Elt F)) : (⟨S2x512x2, .f32⟩ : BufTy).Contents (Elt F) :=
  concatenate S2x512x2 2 [⟨S2x512x1, (v12 (F := F) x0)⟩, ⟨S2x512x1, (v13 (F := F) x0)⟩] concatenates_S2x512x1_S2x512x1_S2x512x2_d2
def v15 (x1 : (⟨S2x256x256x2, .f32⟩ : BufTy).Contents (Elt F)) : (⟨S2x256x256x1x2, .f32⟩ : BufTy).Contents (Elt F) :=
  broadcastInDim S2x256x256x1x2 ![0, 1, 2, 4] bcast_S2x256x256x2_S2x256x256x1x2_0_1_2_4 (x1)
def v16 (x0 : (⟨S2x512x6, .f32⟩ : BufTy).Contents (Elt F)) : (⟨S2x1x1x512x2, .f32⟩ : BufTy).Contents (Elt F) :=
  broadcastInDim S2x1x1x512x2 ![0, 3, 4] bcast_S2x512x2_S2x1x1x512x2_0_3_4 (v14 (F := F) x0)
def v17 (x1 : (⟨S2x256x256x2, .f32⟩ : BufTy).Contents (Elt F)) : (⟨S2x256x256x512x2, .f32⟩ : BufTy).Contents (Elt F) :=
  broadcastInDim S2x256x256x512x2 ![0, 1, 2, 3, 4] bcast_S2x256x256x1x2_S2x256x256x512x2_0_1_2_3_4 (v15 (F := F) x1)
def v18 (x0 : (⟨S2x512x6, .f32⟩ : BufTy).Contents (Elt F)) : (⟨S2x256x256x512x2, .f32⟩ : BufTy).Contents (Elt F) :=
  broadcastInDim S2x256x256x512x2 ![0, 1, 2, 3, 4] bcast_S2x1x1x512x2_S2x256x256x512x2_0_1_2_3_4 (v16 (F := F) x0)
def v19 (x0 : (⟨S2x512x6, .f32⟩ : BufTy).Contents (Elt F)) (x1 : (⟨S2x256x256x2, .f32⟩ : BufTy).Contents (Elt F)) : (⟨S2x256x256x512x2, .f32⟩ : BufTy).Contents (Elt F) :=
  subf (v17 (F := F) x1) (v18 (F := F) x0)
def v20 (x0 : (⟨S2x512x6, .f32⟩ : BufTy).Contents (Elt F)) (x1 : (⟨S2x256x256x2, .f32⟩ : BufTy).Contents (Elt F)) : (⟨S2x256x256x512x2, .f32⟩ : BufTy).Contents (Elt F) :=
  mulf (v19 (F := F) x0 x1) (v19 (F := F) x0 x1)
def cst : (⟨S_, .f32⟩ : BufTy).Contents (Elt F) :=
  constant S_ .f32 0x00000000#32
def v21 (x0 : (⟨S2x512x6, .f32⟩ : BufTy).Contents (Elt F)) (x1 : (⟨S2x256x256x2, .f32⟩ : BufTy).Contents (Elt F)) : (⟨S2x256x256x512, .f32⟩ : BufTy).Contents (Elt F) :=
  Host.reduceAdd (v20 (F := F) x0 x1) (cst (F := F)) reducesTo_S2x256x256x512x2_S2x256x256x512_d4 h_S_
def v22 (x0 : (⟨S2x512x6, .f32⟩ : BufTy).Contents (Elt F)) (x1 : (⟨S2x256x256x2, .f32⟩ : BufTy).Contents (Elt F)) : (⟨S2x256x256x512x1, .f32⟩ : BufTy).Contents (Elt F) :=
  broadcastInDim S2x256x256x512x1 ![0, 1, 2, 3] bcast_S2x256x256x512_S2x256x256x512x1_0_1_2_3 (v21 (F := F) x0 x1)
def v23 (x0 : (⟨S2x512x6, .f32⟩ : BufTy).Contents (Elt F)) : (⟨S2x1x1x512x1, .f32⟩ : BufTy).Contents (Elt F) :=
  broadcastInDim S2x1x1x512x1 ![0, 3] bcast_S2x512_S2x1x1x512x1_0_3 (v7 (F := F) x0)
def v24 (x0 : (⟨S2x512x6, .f32⟩ : BufTy).Contents (Elt F)) : (⟨S2x1x1x512x1, .f32⟩ : BufTy).Contents (Elt F) :=
  broadcastInDim S2x1x1x512x1 ![0, 3] bcast_S2x512_S2x1x1x512x1_0_3 (v5 (F := F) x0)
def v25 (x0 : (⟨S2x512x6, .f32⟩ : BufTy).Contents (Elt F)) (x1 : (⟨S2x256x256x2, .f32⟩ : BufTy).Contents (Elt F)) : (⟨S2x256x256x512x1, .f32⟩ : BufTy).Contents (Elt F) :=
  Host.negf (v22 (F := F) x0 x1)
def v26 (x0 : (⟨S2x512x6, .f32⟩ : BufTy).Contents (Elt F)) : (⟨S2x1x1x512x1, .f32⟩ : BufTy).Contents (Elt F) :=
  mulf (v23 (F := F) x0) (v23 (F := F) x0)
def v27 (x0 : (⟨S2x512x6, .f32⟩ : BufTy).Contents (Elt F)) : (⟨S2x256x256x512x1, .f32⟩ : BufTy).Contents (Elt F) :=
  broadcastInDim S2x256x256x512x1 ![0, 1, 2, 3, 4] bcast_S2x1x1x512x1_S2x256x256x512x1_0_1_2_3_4 (v26 (F := F) x0)
def v28 (x0 : (⟨S2x512x6, .f32⟩ : BufTy).Contents (Elt F)) (x1 : (⟨S2x256x256x2, .f32⟩ : BufTy).Contents (Elt F)) : (⟨S2x256x256x512x1, .f32⟩ : BufTy).Contents (Elt F) :=
  Host.divf (v25 (F := F) x0 x1) (v27 (F := F) x0)
def v29 (x0 : (⟨S2x512x6, .f32⟩ : BufTy).Contents (Elt F)) (x1 : (⟨S2x256x256x2, .f32⟩ : BufTy).Contents (Elt F)) : (⟨S2x256x256x512x1, .f32⟩ : BufTy).Contents (Elt F) :=
  Host.exp (v28 (F := F) x0 x1)
def v30 (x0 : (⟨S2x512x6, .f32⟩ : BufTy).Contents (Elt F)) (x1 : (⟨S2x256x256x2, .f32⟩ : BufTy).Contents (Elt F)) : (⟨S2x256x256x512x1, .f32⟩ : BufTy).Contents (Elt F) :=
  Host.sqrt (v22 (F := F) x0 x1)
def v31 (x0 : (⟨S2x512x6, .f32⟩ : BufTy).Contents (Elt F)) (x1 : (⟨S2x256x256x2, .f32⟩ : BufTy).Contents (Elt F)) : (⟨S2x256x256x512x1, .f32⟩ : BufTy).Contents (Elt F) :=
  Host.divf (v29 (F := F) x0 x1) (v30 (F := F) x0 x1)
def v32 (x0 : (⟨S2x512x6, .f32⟩ : BufTy).Contents (Elt F)) : (⟨S2x256x256x512x1, .f32⟩ : BufTy).Contents (Elt F) :=
  broadcastInDim S2x256x256x512x1 ![0, 1, 2, 3, 4] bcast_S2x1x1x512x1_S2x256x256x512x1_0_1_2_3_4 (v24 (F := F) x0)
def v33 (x0 : (⟨S2x512x6, .f32⟩ : BufTy).Contents (Elt F)) (x1 : (⟨S2x256x256x2, .f32⟩ : BufTy).Contents (Elt F)) : (⟨S2x256x256x512x1, .f32⟩ : BufTy).Contents (Elt F) :=
  mulf (v32 (F := F) x0) (v31 (F := F) x0 x1)
def v34 (x0 : (⟨S2x512x6, .f32⟩ : BufTy).Contents (Elt F)) (x1 : (⟨S2x256x256x2, .f32⟩ : BufTy).Contents (Elt F)) : (⟨S2x256x256x512x1, .f32⟩ : BufTy).Contents (Elt F) :=
  extractStridedSlice S2x256x256x512x1 ![0, 0, 0, 0, 0] (v19 (F := F) x0 x1) slices_S2x256x256x512x2_S2x256x256x512x1_0_0_0_0_0
def v35 (x0 : (⟨S2x512x6, .f32⟩ : BufTy).Contents (Elt F)) (x1 : (⟨S2x256x256x2, .f32⟩ : BufTy).Contents (Elt F)) : (⟨S2x256x256x512, .f32⟩ : BufTy).Contents (Elt F) :=
  shapeCast _ (v34 (F := F) x0 x1) shapeCasts_S2x256x256x512x1_S2x256x256x512
def v36 (x0 : (⟨S2x512x6, .f32⟩ : BufTy).Contents (Elt F)) (x1 : (⟨S2x256x256x2, .f32⟩ : BufTy).Contents (Elt F)) : (⟨S2x256x256x512x1, .f32⟩ : BufTy).Contents (Elt F) :=
  extractStridedSlice S2x256x256x512x1 ![0, 0, 0, 0, 1] (v19 (F := F) x0 x1) slices_S2x256x256x512x2_S2x256x256x512x1_0_0_0_0_1
def v37 (x0 : (⟨S2x512x6, .f32⟩ : BufTy).Contents (Elt F)) (x1 : (⟨S2x256x256x2, .f32⟩ : BufTy).Contents (Elt F)) : (⟨S2x256x256x512, .f32⟩ : BufTy).Contents (Elt F) :=
  shapeCast _ (v36 (F := F) x0 x1) shapeCasts_S2x256x256x512x1_S2x256x256x512
def v38 (x0 : (⟨S2x512x6, .f32⟩ : BufTy).Contents (Elt F)) (x1 : (⟨S2x256x256x2, .f32⟩ : BufTy).Contents (Elt F)) : (⟨S2x256x256x512, .f32⟩ : BufTy).Contents (Elt F) :=
  Host.negf (v35 (F := F) x0 x1)
def v39 (x0 : (⟨S2x512x6, .f32⟩ : BufTy).Contents (Elt F)) (x1 : (⟨S2x256x256x2, .f32⟩ : BufTy).Contents (Elt F)) : (⟨S2x256x256x512x1, .f32⟩ : BufTy).Contents (Elt F) :=
  broadcastInDim S2x256x256x512x1 ![0, 1, 2, 3] bcast_S2x256x256x512_S2x256x256x512x1_0_1_2_3 (v37 (F := F) x0 x1)
def v40 (x0 : (⟨S2x512x6, .f32⟩ : BufTy).Contents (Elt F)) (x1 : (⟨S2x256x256x2, .f32⟩ : BufTy).Contents (Elt F)) : (⟨S2x256x256x512x1, .f32⟩ : BufTy).Contents (Elt F) :=
  broadcastInDim S2x256x256x512x1 ![0, 1, 2, 3] bcast_S2x256x256x512_S2x256x256x512x1_0_1_2_3 (v38 (F := F) x0 x1)
def v41 (x0 : (⟨S2x512x6, .f32⟩ : BufTy).Contents (Elt F)) (x1 : (⟨S2x256x256x2, .f32⟩ : BufTy).Contents (Elt F)) : (⟨S2x256x256x512x2, .f32⟩ : BufTy).Contents (Elt F) :=
  concatenate S2x256x256x512x2 4 [⟨S2x256x256x512x1, (v39 (F := F) x0 x1)⟩, ⟨S2x256x256x512x1, (v40 (F := F) x0 x1)⟩] concatenates_S2x256x256x512x1_S2x256x256x512x1_S2x256x256x512x2_d4
def v42 (x0 : (⟨S2x512x6, .f32⟩ : BufTy).Contents (Elt F)) (x1 : (⟨S2x256x256x2, .f32⟩ : BufTy).Contents (Elt F)) : (⟨S2x256x256x512x2, .f32⟩ : BufTy).Contents (Elt F) :=
  broadcastInDim S2x256x256x512x2 ![0, 1, 2, 3, 4] bcast_S2x256x256x512x1_S2x256x256x512x2_0_1_2_3_4 (v33 (F := F) x0 x1)
def v43 (x0 : (⟨S2x512x6, .f32⟩ : BufTy).Contents (Elt F)) (x1 : (⟨S2x256x256x2, .f32⟩ : BufTy).Contents (Elt F)) : (⟨S2x256x256x512x2, .f32⟩ : BufTy).Contents (Elt F) :=
  mulf (v42 (F := F) x0 x1) (v41 (F := F) x0 x1)
def cst_0 : (⟨S_, .f32⟩ : BufTy).Contents (Elt F) :=
  constant S_ .f32 0x00000000#32
def v44 (x0 : (⟨S2x512x6, .f32⟩ : BufTy).Contents (Elt F)) (x1 : (⟨S2x256x256x2, .f32⟩ : BufTy).Contents (Elt F)) : (⟨S2x256x256x2, .f32⟩ : BufTy).Contents (Elt F) :=
  Host.reduceAdd (v43 (F := F) x0 x1) (cst_0 (F := F)) reducesTo_S2x256x256x512x2_S2x256x256x2_d3 h_S_

/-- The array the program returns, as a function of its two arguments. -/
def refTerm (x0 : (⟨S2x512x6, .f32⟩ : BufTy).Contents (Elt F)) (x1 : (⟨S2x256x256x2, .f32⟩ : BufTy).Contents (Elt F)) : (⟨S2x256x256x2, .f32⟩ : BufTy).Contents (Elt F) :=
  v44 (F := F) x0 x1

end Stages

/-- The vortex table and the pixel array, as arrays of extended reals. -/
abbrev Tbl : Type := (⟨S2x512x6, .f32⟩ : BufTy).Contents (Elt Ideal)
abbrev Pts : Type := (⟨S2x256x256x2, .f32⟩ : BufTy).Contents (Elt Ideal)

/-! ## The element-by-element operations at an index -/

theorem v20_at (x0 : Tbl) (x1 : Pts) (i : S2x256x256x512x2.Idx) :
    v20 (F := Ideal) x0 x1 i = v19 (F := Ideal) x0 x1 i * v19 (F := Ideal) x0 x1 i := rfl
theorem v25_at (x0 : Tbl) (x1 : Pts) (i : S2x256x256x512x1.Idx) :
    v25 (F := Ideal) x0 x1 i = -(v22 (F := Ideal) x0 x1 i) := rfl
theorem v26_at (x0 : Tbl) (i : S2x1x1x512x1.Idx) :
    v26 (F := Ideal) x0 i = v23 (F := Ideal) x0 i * v23 (F := Ideal) x0 i := rfl
theorem v28_at (x0 : Tbl) (x1 : Pts) (i : S2x256x256x512x1.Idx) :
    v28 (F := Ideal) x0 x1 i = Ideal.div (v25 (F := Ideal) x0 x1 i) (v27 (F := Ideal) x0 i) := rfl
theorem v29_at (x0 : Tbl) (x1 : Pts) (i : S2x256x256x512x1.Idx) :
    v29 (F := Ideal) x0 x1 i = Ideal.exp (v28 (F := Ideal) x0 x1 i) := rfl
theorem v30_at (x0 : Tbl) (x1 : Pts) (i : S2x256x256x512x1.Idx) :
    v30 (F := Ideal) x0 x1 i = Ideal.sqrt (v22 (F := Ideal) x0 x1 i) := rfl
theorem v31_at (x0 : Tbl) (x1 : Pts) (i : S2x256x256x512x1.Idx) :
    v31 (F := Ideal) x0 x1 i = Ideal.div (v29 (F := Ideal) x0 x1 i) (v30 (F := Ideal) x0 x1 i) := rfl
theorem v33_at (x0 : Tbl) (x1 : Pts) (i : S2x256x256x512x1.Idx) :
    v33 (F := Ideal) x0 x1 i = v32 (F := Ideal) x0 i * v31 (F := Ideal) x0 x1 i := rfl
theorem v38_at (x0 : Tbl) (x1 : Pts) (i : S2x256x256x512.Idx) :
    v38 (F := Ideal) x0 x1 i = -(v35 (F := Ideal) x0 x1 i) := rfl
theorem v43_at (x0 : Tbl) (x1 : Pts) (i : S2x256x256x512x2.Idx) :
    v43 (F := Ideal) x0 x1 i = v42 (F := Ideal) x0 x1 i * v41 (F := Ideal) x0 x1 i := rfl

/-! ## The table's columns at `(b, n)`

A column is cut out of the table as a `[2, 512, 1]` array and flattened to `[2, 512]`; the two indices
`(b, n, 0)` and `(b, n)` have the same row-major position `b * 512 + n`. -/

theorem col0_at (x0 : Tbl) (b : Fin 2) (n : Fin 512) :
    v1 (F := Ideal) x0 (ix2 b n) = x0 (ix3 b n (0 : Fin 6)) := by
  unfold v1
  refine (shapeCast_apply _ shapeCasts_S2x512x1_S2x512 (ix2 b n) (ix3 b n (0 : Fin 1)) ?_).trans ?_
  · rewrite [Shape.rowMajor_val_three, Shape.rowMajor_val_two]
    show (b.val * 512 + n.val) * 1 + 0 = b.val * 512 + n.val
    omega
  · unfold v0
    exact extractStridedSlice_apply ![0, 0, 0] x0 slices_S2x512x6_S2x512x1_0_0_0 (ix3 b n (0 : Fin 1)) (ix3 b n (0 : Fin 6))
      (fun a => match a with
        | ⟨0, _⟩ => by show b.val = 0 + b.val; omega
        | ⟨1, _⟩ => by show n.val = 0 + n.val; omega
        | ⟨2, _⟩ => rfl)

theorem col1_at (x0 : Tbl) (b : Fin 2) (n : Fin 512) :
    v3 (F := Ideal) x0 (ix2 b n) = x0 (ix3 b n (1 : Fin 6)) := by
  unfold v3
  refine (shapeCast_apply _ shapeCasts_S2x512x1_S2x512 (ix2 b n) (ix3 b n (0 : Fin 1)) ?_).trans ?_
  · rewrite [Shape.rowMajor_val_three, Shape.rowMajor_val_two]
    show (b.val * 512 + n.val) * 1 + 0 = b.val * 512 + n.val
    omega
  · unfold v2
    exact extractStridedSlice_apply ![0, 0, 1] x0 slices_S2x512x6_S2x512x1_0_0_1 (ix3 b n (0 : Fin 1)) (ix3 b n (1 : Fin 6))
      (fun a => match a with
        | ⟨0, _⟩ => by show b.val = 0 + b.val; omega
        | ⟨1, _⟩ => by show n.val = 0 + n.val; omega
        | ⟨2, _⟩ => rfl)

theorem col2_at (x0 : Tbl) (b : Fin 2) (n : Fin 512) :
    v5 (F := Ideal) x0 (ix2 b n) = x0 (ix3 b n (2 : Fin 6)) := by
  unfold v5
  refine (shapeCast_apply _ shapeCasts_S2x512x1_S2x512 (ix2 b n) (ix3 b n (0 : Fin 1)) ?_).trans ?_
  · rewrite [Shape.rowMajor_val_three, Shape.rowMajor_val_two]
    show (b.val * 512 + n.val) * 1 + 0 = b.val * 512 + n.val
    omega
  · unfold v4
    exact extractStridedSlice_apply ![0, 0, 2] x0 slices_S2x512x6_S2x512x1_0_0_2 (ix3 b n (0 : Fin 1)) (ix3 b n (2 : Fin 6))
      (fun a => match a with
        | ⟨0, _⟩ => by show b.val = 0 + b.val; omega
        | ⟨1, _⟩ => by show n.val = 0 + n.val; omega
        | ⟨2, _⟩ => rfl)

theorem col3_at (x0 : Tbl) (b : Fin 2) (n : Fin 512) :
    v7 (F := Ideal) x0 (ix2 b n) = x0 (ix3 b n (3 : Fin 6)) := by
  unfold v7
  refine (shapeCast_apply _ shapeCasts_S2x512x1_S2x512 (ix2 b n) (ix3 b n (0 : Fin 1)) ?_).trans ?_
  · rewrite [Shape.rowMajor_val_three, Shape.rowMajor_val_two]
    show (b.val * 512 + n.val) * 1 + 0 = b.val * 512 + n.val
    omega
  · unfold v6
    exact extractStridedSlice_apply ![0, 0, 3] x0 slices_S2x512x6_S2x512x1_0_0_3 (ix3 b n (0 : Fin 1)) (ix3 b n (3 : Fin 6))
      (fun a => match a with
        | ⟨0, _⟩ => by show b.val = 0 + b.val; omega
        | ⟨1, _⟩ => by show n.val = 0 + n.val; omega
        | ⟨2, _⟩ => rfl)

/-! ## The vortex's coordinates `(y, x)` as one `[2, 512, 2]` array

Each coordinate column gets a last axis of extent one, and the two are joined along it: position 0
of the joined axis is the first column, position 1 the second. -/

theorem v12_at (x0 : Tbl) (b : Fin 2) (n : Fin 512) :
    v12 (F := Ideal) x0 (ix3 b n (0 : Fin 1)) = x0 (ix3 b n (0 : Fin 6)) := by
  unfold v12
  refine (broadcastInDim_apply _ bcast_S2x512_S2x512x1_0_1 _ (ix3 b n (0 : Fin 1)) (ix2 b n) (fun a => ?_)).trans
    (col0_at x0 b n)
  match a with
  | ⟨0, _⟩ =>
    show b.val = if (2 : Nat) = 1 then 0 else b.val
    rw [if_neg (by decide)]
  | ⟨1, _⟩ =>
    show n.val = if (512 : Nat) = 1 then 0 else n.val
    rw [if_neg (by decide)]

theorem v13_at (x0 : Tbl) (b : Fin 2) (n : Fin 512) :
    v13 (F := Ideal) x0 (ix3 b n (0 : Fin 1)) = x0 (ix3 b n (1 : Fin 6)) := by
  unfold v13
  refine (broadcastInDim_apply _ bcast_S2x512_S2x512x1_0_1 _ (ix3 b n (0 : Fin 1)) (ix2 b n) (fun a => ?_)).trans
    (col1_at x0 b n)
  match a with
  | ⟨0, _⟩ =>
    show b.val = if (2 : Nat) = 1 then 0 else b.val
    rw [if_neg (by decide)]
  | ⟨1, _⟩ =>
    show n.val = if (512 : Nat) = 1 then 0 else n.val
    rw [if_neg (by decide)]

theorem ctr0_at (x0 : Tbl) (b : Fin 2) (n : Fin 512) :
    v14 (F := Ideal) x0 (ix3 b n (0 : Fin 2)) = x0 (ix3 b n (0 : Fin 6)) := by
  unfold v14
  refine (concatenate_pair_apply_left (t := S2x512x2) (2 : Fin 3) _ _ concatenates_S2x512x1_S2x512x1_S2x512x2_d2 _ rfl
    (ix3 b n (0 : Fin 1)) (fun a => ?_)).trans (v12_at x0 b n)
  match a with
  | ⟨0, _⟩ => rfl
  | ⟨1, _⟩ => rfl
  | ⟨2, _⟩ => rfl

theorem ctr1_at (x0 : Tbl) (b : Fin 2) (n : Fin 512) :
    v14 (F := Ideal) x0 (ix3 b n (1 : Fin 2)) = x0 (ix3 b n (1 : Fin 6)) := by
  unfold v14
  refine (concatenate_pair_apply_right (t := S2x512x2) (2 : Fin 3) _ _ concatenates_S2x512x1_S2x512x1_S2x512x2_d2 _ rfl rfl
    (ix3 b n (0 : Fin 1)) (fun a ha => ?_) ?_).trans (v13_at x0 b n)
  · match a, ha with
    | ⟨0, _⟩, _ => rfl
    | ⟨1, _⟩, _ => rfl
    | ⟨2, _⟩, ha => exact absurd rfl ha
  · rfl

/-! ## The displacement from vortex `n` to pixel `(p, q)`

Both arrays are repeated along the axes they lack; component `k` of the difference is the pixel's
coordinate `k` minus the vortex's coordinate `k`. -/

theorem v15_at (x1 : Pts) (b : Fin 2) (p : Fin 256) (q : Fin 256) (k : Fin 2) :
    v15 (F := Ideal) x1 (ix5 b p q (0 : Fin 1) k) = x1 (ix4 b p q k) := by
  unfold v15
  refine broadcastInDim_apply _ bcast_S2x256x256x2_S2x256x256x1x2_0_1_2_4 x1 _ (ix4 b p q k) (fun a => ?_)
  match a with
  | ⟨0, _⟩ =>
    show b.val = if (2 : Nat) = 1 then 0 else b.val
    rw [if_neg (by decide)]
  | ⟨1, _⟩ =>
    show p.val = if (256 : Nat) = 1 then 0 else p.val
    rw [if_neg (by decide)]
  | ⟨2, _⟩ =>
    show q.val = if (256 : Nat) = 1 then 0 else q.val
    rw [if_neg (by decide)]
  | ⟨3, _⟩ =>
    show k.val = if (2 : Nat) = 1 then 0 else k.val
    rw [if_neg (by decide)]

theorem v17_at (x1 : Pts) (b : Fin 2) (p : Fin 256) (q : Fin 256) (n : Fin 512) (k : Fin 2) :
    v17 (F := Ideal) x1 (ix5 b p q n k) = x1 (ix4 b p q k) := by
  unfold v17
  refine (broadcastInDim_apply _ bcast_S2x256x256x1x2_S2x256x256x512x2_0_1_2_3_4 _ _ (ix5 b p q (0 : Fin 1) k)
    (fun a => ?_)).trans (v15_at x1 b p q k)
  match a with
  | ⟨0, _⟩ =>
    show b.val = if (2 : Nat) = 1 then 0 else b.val
    rw [if_neg (by decide)]
  | ⟨1, _⟩ =>
    show p.val = if (256 : Nat) = 1 then 0 else p.val
    rw [if_neg (by decide)]
  | ⟨2, _⟩ =>
    show q.val = if (256 : Nat) = 1 then 0 else q.val
    rw [if_neg (by decide)]
  | ⟨3, _⟩ =>
    show (0 : Nat) = if (1 : Nat) = 1 then 0 else n.val
    rw [if_pos rfl]
  | ⟨4, _⟩ =>
    show k.val = if (2 : Nat) = 1 then 0 else k.val
    rw [if_neg (by decide)]

theorem v16_at (x0 : Tbl) (b : Fin 2) (n : Fin 512) (k : Fin 2) :
    v16 (F := Ideal) x0 (ix5 b (0 : Fin 1) (0 : Fin 1) n k) = v14 (F := Ideal) x0 (ix3 b n k) := by
  unfold v16
  refine broadcastInDim_apply _ bcast_S2x512x2_S2x1x1x512x2_0_3_4 _ _ (ix3 b n k) (fun a => ?_)
  match a with
  | ⟨0, _⟩ =>
    show b.val = if (2 : Nat) = 1 then 0 else b.val
    rw [if_neg (by decide)]
  | ⟨1, _⟩ =>
    show n.val = if (512 : Nat) = 1 then 0 else n.val
    rw [if_neg (by decide)]
  | ⟨2, _⟩ =>
    show k.val = if (2 : Nat) = 1 then 0 else k.val
    rw [if_neg (by decide)]

theorem v18_at (x0 : Tbl) (b : Fin 2) (p : Fin 256) (q : Fin 256) (n : Fin 512) (k : Fin 2) :
    v18 (F := Ideal) x0 (ix5 b p q n k) = v14 (F := Ideal) x0 (ix3 b n k) := by
  unfold v18
  refine (broadcastInDim_apply _ bcast_S2x1x1x512x2_S2x256x256x512x2_0_1_2_3_4 _ _
    (ix5 b (0 : Fin 1) (0 : Fin 1) n k) (fun a => ?_)).trans (v16_at x0 b n k)
  match a with
  | ⟨0, _⟩ =>
    show b.val = if (2 : Nat) = 1 then 0 else b.val
    rw [if_neg (by decide)]
  | ⟨1, _⟩ =>
    show (0 : Nat) = if (1 : Nat) = 1 then 0 else p.val
    rw [if_pos rfl]
  | ⟨2, _⟩ =>
    show (0 : Nat) = if (1 : Nat) = 1 then 0 else q.val
    rw [if_pos rfl]
  | ⟨3, _⟩ =>
    show n.val = if (512 : Nat) = 1 then 0 else n.val
    rw [if_neg (by decide)]
  | ⟨4, _⟩ =>
    show k.val = if (2 : Nat) = 1 then 0 else k.val
    rw [if_neg (by decide)]

theorem disp_at (x0 : Tbl) (x1 : Pts) (b : Fin 2) (p : Fin 256) (q : Fin 256) (n : Fin 512) (k : Fin 2) :
    v19 (F := Ideal) x0 x1 (ix5 b p q n k) = x1 (ix4 b p q k) - v14 (F := Ideal) x0 (ix3 b n k) := by
  unfold v19
  rw [subf_apply, v17_at, v18_at]

theorem disp0_at (x0 : Tbl) (x1 : Pts) (b : Fin 2) (p : Fin 256) (q : Fin 256) (n : Fin 512) :
    v19 (F := Ideal) x0 x1 (ix5 b p q n (0 : Fin 2)) = x1 (ix4 b p q (0 : Fin 2)) - x0 (ix3 b n (0 : Fin 6)) := by
  rw [disp_at, ctr0_at]

theorem disp1_at (x0 : Tbl) (x1 : Pts) (b : Fin 2) (p : Fin 256) (q : Fin 256) (n : Fin 512) :
    v19 (F := Ideal) x0 x1 (ix5 b p q n (1 : Fin 2)) = x1 (ix4 b p q (1 : Fin 2)) - x0 (ix3 b n (1 : Fin 6)) := by
  rw [disp_at, ctr1_at]

/-! ## The squared distance

The sum over the last axis, of extent two, of the squared components, from the initial value zero. -/

theorem v21_sum (x0 : Tbl) (x1 : Pts) (b : Fin 2) (p : Fin 256) (q : Fin 256) (n : Fin 512) :
    v21 (F := Ideal) x0 x1 (ix4 b p q n)
      = cst (F := Ideal) (Shape.Idx.first h_S_) + ∑ k : Fin 2, v20 (F := Ideal) x0 x1 (ix5 b p q n k) := by
  unfold v21
  generalize v20 (F := Ideal) x0 x1 = y
  simp only [Host.reduceAdd, Ideal.hostReduceAdd_def]
  rw [Ideal.hostReduceAdd_single reducesTo_S2x256x256x512x2_S2x256x256x512_d4 (by decide)]
  refine congrArg (_ + ·) (Finset.sum_congr rfl fun k _ => ?_)
  exact congrArg y (funext fun a => Fin.ext (by
  match a with
  | ⟨0, _⟩ => rfl
  | ⟨1, _⟩ => rfl
  | ⟨2, _⟩ => rfl
  | ⟨3, _⟩ => rfl
  | ⟨4, _⟩ => rfl))

theorem sqd_at (x0 : Tbl) (x1 : Pts) (b : Fin 2) (p : Fin 256) (q : Fin 256) (n : Fin 512) :
    v21 (F := Ideal) x0 x1 (ix4 b p q n)
      = sqd (x1 (ix4 b p q (0 : Fin 2))) (x1 (ix4 b p q (1 : Fin 2)))
          (x0 (ix3 b n (0 : Fin 6))) (x0 (ix3 b n (1 : Fin 6))) := by
  rw [v21_sum, Fin.sum_univ_two, v20_at, v20_at, disp0_at, disp1_at]
  unfold cst
  rw [constant_apply, Ideal.ofBits_zero_f32, zero_add]
  rfl

/-- The same number on the `[2, 256, 256, 512, 1]` array the later stages read. -/
theorem sqd5_at (x0 : Tbl) (x1 : Pts) (b : Fin 2) (p : Fin 256) (q : Fin 256) (n : Fin 512) :
    v22 (F := Ideal) x0 x1 (ix5 b p q n (0 : Fin 1))
      = sqd (x1 (ix4 b p q (0 : Fin 2))) (x1 (ix4 b p q (1 : Fin 2)))
          (x0 (ix3 b n (0 : Fin 6))) (x0 (ix3 b n (1 : Fin 6))) := by
  unfold v22
  refine (broadcastInDim_apply _ bcast_S2x256x256x512_S2x256x256x512x1_0_1_2_3 _ _ (ix4 b p q n) (fun a => ?_)).trans
    (sqd_at x0 x1 b p q n)
  match a with
  | ⟨0, _⟩ =>
    show b.val = if (2 : Nat) = 1 then 0 else b.val
    rw [if_neg (by decide)]
  | ⟨1, _⟩ =>
    show p.val = if (256 : Nat) = 1 then 0 else p.val
    rw [if_neg (by decide)]
  | ⟨2, _⟩ =>
    show q.val = if (256 : Nat) = 1 then 0 else q.val
    rw [if_neg (by decide)]
  | ⟨3, _⟩ =>
    show n.val = if (512 : Nat) = 1 then 0 else n.val
    rw [if_neg (by decide)]

/-! ## The width squared and the strength, repeated over the pixels -/

theorem v23_at (x0 : Tbl) (b : Fin 2) (n : Fin 512) :
    v23 (F := Ideal) x0 (ix5 b (0 : Fin 1) (0 : Fin 1) n (0 : Fin 1)) = x0 (ix3 b n (3 : Fin 6)) := by
  unfold v23
  refine (broadcastInDim_apply _ bcast_S2x512_S2x1x1x512x1_0_3 _ _ (ix2 b n) (fun a => ?_)).trans (col3_at x0 b n)
  match a with
  | ⟨0, _⟩ =>
    show b.val = if (2 : Nat) = 1 then 0 else b.val
    rw [if_neg (by decide)]
  | ⟨1, _⟩ =>
    show n.val = if (512 : Nat) = 1 then 0 else n.val
    rw [if_neg (by decide)]

theorem v24_at (x0 : Tbl) (b : Fin 2) (n : Fin 512) :
    v24 (F := Ideal) x0 (ix5 b (0 : Fin 1) (0 : Fin 1) n (0 : Fin 1)) = x0 (ix3 b n (2 : Fin 6)) := by
  unfold v24
  refine (broadcastInDim_apply _ bcast_S2x512_S2x1x1x512x1_0_3 _ _ (ix2 b n) (fun a => ?_)).trans (col2_at x0 b n)
  match a with
  | ⟨0, _⟩ =>
    show b.val = if (2 : Nat) = 1 then 0 else b.val
    rw [if_neg (by decide)]
  | ⟨1, _⟩ =>
    show n.val = if (512 : Nat) = 1 then 0 else n.val
    rw [if_neg (by decide)]

theorem sig2_at (x0 : Tbl) (b : Fin 2) (p : Fin 256) (q : Fin 256) (n : Fin 512) :
    v27 (F := Ideal) x0 (ix5 b p q n (0 : Fin 1)) = x0 (ix3 b n (3 : Fin 6)) * x0 (ix3 b n (3 : Fin 6)) := by
  unfold v27
  refine (broadcastInDim_apply _ bcast_S2x1x1x512x1_S2x256x256x512x1_0_1_2_3_4 _ _
    (ix5 b (0 : Fin 1) (0 : Fin 1) n (0 : Fin 1)) (fun a => ?_)).trans ?_
  · match a with
    | ⟨0, _⟩ =>
      show b.val = if (2 : Nat) = 1 then 0 else b.val
      rw [if_neg (by decide)]
    | ⟨1, _⟩ =>
      show (0 : Nat) = if (1 : Nat) = 1 then 0 else p.val
      rw [if_pos rfl]
    | ⟨2, _⟩ =>
      show (0 : Nat) = if (1 : Nat) = 1 then 0 else q.val
      rw [if_pos rfl]
    | ⟨3, _⟩ =>
      show n.val = if (512 : Nat) = 1 then 0 else n.val
      rw [if_neg (by decide)]
    | ⟨4, _⟩ =>
      show (0 : Nat) = if (1 : Nat) = 1 then 0 else (0 : Nat)
      rw [if_pos rfl]
  · rw [v26_at, v23_at]

theorem tau_at (x0 : Tbl) (b : Fin 2) (p : Fin 256) (q : Fin 256) (n : Fin 512) :
    v32 (F := Ideal) x0 (ix5 b p q n (0 : Fin 1)) = x0 (ix3 b n (2 : Fin 6)) := by
  unfold v32
  refine (broadcastInDim_apply _ bcast_S2x1x1x512x1_S2x256x256x512x1_0_1_2_3_4 _ _
    (ix5 b (0 : Fin 1) (0 : Fin 1) n (0 : Fin 1)) (fun a => ?_)).trans (v24_at x0 b n)
  match a with
    | ⟨0, _⟩ =>
      show b.val = if (2 : Nat) = 1 then 0 else b.val
      rw [if_neg (by decide)]
    | ⟨1, _⟩ =>
      show (0 : Nat) = if (1 : Nat) = 1 then 0 else p.val
      rw [if_pos rfl]
    | ⟨2, _⟩ =>
      show (0 : Nat) = if (1 : Nat) = 1 then 0 else q.val
      rw [if_pos rfl]
    | ⟨3, _⟩ =>
      show n.val = if (512 : Nat) = 1 then 0 else n.val
      rw [if_neg (by decide)]
    | ⟨4, _⟩ =>
      show (0 : Nat) = if (1 : Nat) = 1 then 0 else (0 : Nat)
      rw [if_pos rfl]

/-! ## The weight of vortex `n` at pixel `(p, q)` -/

theorem weight_at (x0 : Tbl) (x1 : Pts) (b : Fin 2) (p : Fin 256) (q : Fin 256) (n : Fin 512) :
    v33 (F := Ideal) x0 x1 (ix5 b p q n (0 : Fin 1))
      = strR (x1 (ix4 b p q (0 : Fin 2))) (x1 (ix4 b p q (1 : Fin 2)))
          (x0 (ix3 b n (0 : Fin 6))) (x0 (ix3 b n (1 : Fin 6)))
          (x0 (ix3 b n (2 : Fin 6))) (x0 (ix3 b n (3 : Fin 6))) := by
  rw [v33_at, v31_at, v29_at, v28_at, v25_at, v30_at, tau_at, sig2_at, sqd5_at]
  rfl

/-! ## The pair the weight multiplies

Position 0 of the last axis holds the displacement's second component, position 1 minus its first
component; each is cut out of the displacement, flattened, given a last axis of extent one again,
and the two are joined along it. -/

theorem v35_at (x0 : Tbl) (x1 : Pts) (b : Fin 2) (p : Fin 256) (q : Fin 256) (n : Fin 512) :
    v35 (F := Ideal) x0 x1 (ix4 b p q n) = v19 (F := Ideal) x0 x1 (ix5 b p q n (0 : Fin 2)) := by
  unfold v35
  refine (shapeCast_apply _ shapeCasts_S2x256x256x512x1_S2x256x256x512 (ix4 b p q n) (ix5 b p q n (0 : Fin 1)) ?_).trans ?_
  · rewrite [Shape.rowMajor_val_five, Shape.rowMajor_val_four]
    show (((b.val * 256 + p.val) * 256 + q.val) * 512 + n.val) * 1 + 0
      = ((b.val * 256 + p.val) * 256 + q.val) * 512 + n.val
    omega
  · unfold v34
    exact extractStridedSlice_apply ![0, 0, 0, 0, 0] _ slices_S2x256x256x512x2_S2x256x256x512x1_0_0_0_0_0
      (ix5 b p q n (0 : Fin 1)) (ix5 b p q n (0 : Fin 2))
      (fun a => match a with
        | ⟨0, _⟩ => by show b.val = 0 + b.val; omega
        | ⟨1, _⟩ => by show p.val = 0 + p.val; omega
        | ⟨2, _⟩ => by show q.val = 0 + q.val; omega
        | ⟨3, _⟩ => by show n.val = 0 + n.val; omega
        | ⟨4, _⟩ => rfl)

theorem v37_at (x0 : Tbl) (x1 : Pts) (b : Fin 2) (p : Fin 256) (q : Fin 256) (n : Fin 512) :
    v37 (F := Ideal) x0 x1 (ix4 b p q n) = v19 (F := Ideal) x0 x1 (ix5 b p q n (1 : Fin 2)) := by
  unfold v37
  refine (shapeCast_apply _ shapeCasts_S2x256x256x512x1_S2x256x256x512 (ix4 b p q n) (ix5 b p q n (0 : Fin 1)) ?_).trans ?_
  · rewrite [Shape.rowMajor_val_five, Shape.rowMajor_val_four]
    show (((b.val * 256 + p.val) * 256 + q.val) * 512 + n.val) * 1 + 0
      = ((b.val * 256 + p.val) * 256 + q.val) * 512 + n.val
    omega
  · unfold v36
    exact extractStridedSlice_apply ![0, 0, 0, 0, 1] _ slices_S2x256x256x512x2_S2x256x256x512x1_0_0_0_0_1
      (ix5 b p q n (0 : Fin 1)) (ix5 b p q n (1 : Fin 2))
      (fun a => match a with
        | ⟨0, _⟩ => by show b.val = 0 + b.val; omega
        | ⟨1, _⟩ => by show p.val = 0 + p.val; omega
        | ⟨2, _⟩ => by show q.val = 0 + q.val; omega
        | ⟨3, _⟩ => by show n.val = 0 + n.val; omega
        | ⟨4, _⟩ => rfl)

theorem v39_at (x0 : Tbl) (x1 : Pts) (b : Fin 2) (p : Fin 256) (q : Fin 256) (n : Fin 512) :
    v39 (F := Ideal) x0 x1 (ix5 b p q n (0 : Fin 1)) = v37 (F := Ideal) x0 x1 (ix4 b p q n) := by
  unfold v39
  refine broadcastInDim_apply _ bcast_S2x256x256x512_S2x256x256x512x1_0_1_2_3 _ _ (ix4 b p q n) (fun a => ?_)
  match a with
  | ⟨0, _⟩ =>
    show b.val = if (2 : Nat) = 1 then 0 else b.val
    rw [if_neg (by decide)]
  | ⟨1, _⟩ =>
    show p.val = if (256 : Nat) = 1 then 0 else p.val
    rw [if_neg (by decide)]
  | ⟨2, _⟩ =>
    show q.val = if (256 : Nat) = 1 then 0 else q.val
    rw [if_neg (by decide)]
  | ⟨3, _⟩ =>
    show n.val = if (512 : Nat) = 1 then 0 else n.val
    rw [if_neg (by decide)]

theorem v40_at (x0 : Tbl) (x1 : Pts) (b : Fin 2) (p : Fin 256) (q : Fin 256) (n : Fin 512) :
    v40 (F := Ideal) x0 x1 (ix5 b p q n (0 : Fin 1)) = v38 (F := Ideal) x0 x1 (ix4 b p q n) := by
  unfold v40
  refine broadcastInDim_apply _ bcast_S2x256x256x512_S2x256x256x512x1_0_1_2_3 _ _ (ix4 b p q n) (fun a => ?_)
  match a with
  | ⟨0, _⟩ =>
    show b.val = if (2 : Nat) = 1 then 0 else b.val
    rw [if_neg (by decide)]
  | ⟨1, _⟩ =>
    show p.val = if (256 : Nat) = 1 then 0 else p.val
    rw [if_neg (by decide)]
  | ⟨2, _⟩ =>
    show q.val = if (256 : Nat) = 1 then 0 else q.val
    rw [if_neg (by decide)]
  | ⟨3, _⟩ =>
    show n.val = if (512 : Nat) = 1 then 0 else n.val
    rw [if_neg (by decide)]

theorem dir0_at (x0 : Tbl) (x1 : Pts) (b : Fin 2) (p : Fin 256) (q : Fin 256) (n : Fin 512) :
    v41 (F := Ideal) x0 x1 (ix5 b p q n (0 : Fin 2)) = x1 (ix4 b p q (1 : Fin 2)) - x0 (ix3 b n (1 : Fin 6)) := by
  unfold v41
  refine (concatenate_pair_apply_left (t := S2x256x256x512x2) (4 : Fin 5) _ _
    concatenates_S2x256x256x512x1_S2x256x256x512x1_S2x256x256x512x2_d4 _ rfl
    (ix5 b p q n (0 : Fin 1)) (fun a => ?_)).trans ?_
  · match a with
    | ⟨0, _⟩ => rfl
    | ⟨1, _⟩ => rfl
    | ⟨2, _⟩ => rfl
    | ⟨3, _⟩ => rfl
    | ⟨4, _⟩ => rfl
  · rw [v39_at, v37_at, disp1_at]

theorem dir1_at (x0 : Tbl) (x1 : Pts) (b : Fin 2) (p : Fin 256) (q : Fin 256) (n : Fin 512) :
    v41 (F := Ideal) x0 x1 (ix5 b p q n (1 : Fin 2)) = -(x1 (ix4 b p q (0 : Fin 2)) - x0 (ix3 b n (0 : Fin 6))) := by
  unfold v41
  refine (concatenate_pair_apply_right (t := S2x256x256x512x2) (4 : Fin 5) _ _
    concatenates_S2x256x256x512x1_S2x256x256x512x1_S2x256x256x512x2_d4 _ rfl rfl
    (ix5 b p q n (0 : Fin 1)) (fun a ha => ?_) ?_).trans ?_
  · match a, ha with
    | ⟨0, _⟩, _ => rfl
    | ⟨1, _⟩, _ => rfl
    | ⟨2, _⟩, _ => rfl
    | ⟨3, _⟩, _ => rfl
    | ⟨4, _⟩, ha => exact absurd rfl ha
  · rfl
  · rw [v40_at, v38_at, v35_at, disp0_at]

/-! ## One vortex's contribution to each channel -/

theorem v42_at (x0 : Tbl) (x1 : Pts) (b : Fin 2) (p : Fin 256) (q : Fin 256) (n : Fin 512) (c : Fin 2) :
    v42 (F := Ideal) x0 x1 (ix5 b p q n c) = v33 (F := Ideal) x0 x1 (ix5 b p q n (0 : Fin 1)) := by
  unfold v42
  refine broadcastInDim_apply _ bcast_S2x256x256x512x1_S2x256x256x512x2_0_1_2_3_4 _ _ (ix5 b p q n (0 : Fin 1)) (fun a => ?_)
  match a with
  | ⟨0, _⟩ =>
    show b.val = if (2 : Nat) = 1 then 0 else b.val
    rw [if_neg (by decide)]
  | ⟨1, _⟩ =>
    show p.val = if (256 : Nat) = 1 then 0 else p.val
    rw [if_neg (by decide)]
  | ⟨2, _⟩ =>
    show q.val = if (256 : Nat) = 1 then 0 else q.val
    rw [if_neg (by decide)]
  | ⟨3, _⟩ =>
    show n.val = if (512 : Nat) = 1 then 0 else n.val
    rw [if_neg (by decide)]
  | ⟨4, _⟩ =>
    show (0 : Nat) = if (1 : Nat) = 1 then 0 else c.val
    rw [if_pos rfl]

theorem term0_at (x0 : Tbl) (x1 : Pts) (b : Fin 2) (p : Fin 256) (q : Fin 256) (n : Fin 512) :
    v43 (F := Ideal) x0 x1 (ix5 b p q n (0 : Fin 2))
      = termR 0 (x1 (ix4 b p q (0 : Fin 2))) (x1 (ix4 b p q (1 : Fin 2)))
          (x0 (ix3 b n (0 : Fin 6))) (x0 (ix3 b n (1 : Fin 6)))
          (x0 (ix3 b n (2 : Fin 6))) (x0 (ix3 b n (3 : Fin 6))) := by
  rw [v43_at, v42_at, weight_at, dir0_at]
  unfold termR
  rw [if_pos rfl]

theorem term1_at (x0 : Tbl) (x1 : Pts) (b : Fin 2) (p : Fin 256) (q : Fin 256) (n : Fin 512) :
    v43 (F := Ideal) x0 x1 (ix5 b p q n (1 : Fin 2))
      = termR 1 (x1 (ix4 b p q (0 : Fin 2))) (x1 (ix4 b p q (1 : Fin 2)))
          (x0 (ix3 b n (0 : Fin 6))) (x0 (ix3 b n (1 : Fin 6)))
          (x0 (ix3 b n (2 : Fin 6))) (x0 (ix3 b n (3 : Fin 6))) := by
  rw [v43_at, v42_at, weight_at, dir1_at]
  unfold termR
  rw [if_neg Nat.one_ne_zero]

/-! ## The sum over the vortices -/

theorem v44_sum (x0 : Tbl) (x1 : Pts) (b : Fin 2) (p : Fin 256) (q : Fin 256) (c : Fin 2) :
    v44 (F := Ideal) x0 x1 (ix4 b p q c)
      = cst_0 (F := Ideal) (Shape.Idx.first h_S_) + ∑ n : Fin 512, v43 (F := Ideal) x0 x1 (ix5 b p q n c) := by
  unfold v44
  generalize v43 (F := Ideal) x0 x1 = y
  simp only [Host.reduceAdd, Ideal.hostReduceAdd_def]
  rw [Ideal.hostReduceAdd_single reducesTo_S2x256x256x512x2_S2x256x256x2_d3 (by decide)]
  refine congrArg (_ + ·) (Finset.sum_congr rfl fun k _ => ?_)
  exact congrArg y (funext fun a => Fin.ext (by
  match a with
  | ⟨0, _⟩ => rfl
  | ⟨1, _⟩ => rfl
  | ⟨2, _⟩ => rfl
  | ⟨3, _⟩ => rfl
  | ⟨4, _⟩ => rfl))

theorem out_at (x0 : Tbl) (x1 : Pts) (b : Fin 2) (p : Fin 256) (q : Fin 256) :
    ∀ c : Fin 2, v44 (F := Ideal) x0 x1 (ix4 b p q c) = outR x0 x1 (ix4 b p q c) := by
  rw [Fin.forall_fin_two]
  constructor
  · rw [v44_sum]
    unfold cst_0 outR
    rw [constant_apply, Ideal.ofBits_zero_f32, zero_add]
    refine Finset.sum_congr rfl fun n _ => ?_
    rw [term0_at]
    rfl
  · rw [v44_sum]
    unfold cst_0 outR
    rw [constant_apply, Ideal.ofBits_zero_f32, zero_add]
    refine Finset.sum_congr rfl fun n _ => ?_
    rw [term1_at]
    rfl

/-- The array the reference program returns is `outR` of the two argument arrays. -/
theorem refTerm_is_outR (x0 : (⟨Cert.ReferenceIdeal.S2x512x6, .f32⟩ : BufTy).Contents (Elt Ideal))
    (x1 : (⟨Cert.ReferenceIdeal.S2x256x256x2, .f32⟩ : BufTy).Contents (Elt Ideal)) :
    refTerm (F := Ideal) x0 x1 = Cert.Falloff.outR x0 x1 := by
  funext i
  obtain ⟨b, p, q, c, rfl⟩ : ∃ (b : Fin 2) (p : Fin 256) (q : Fin 256) (c : Fin 2), i = ix4 b p q c :=
    ⟨i 0, i 1, i 2, i 3, eq_ix4 i⟩
  exact out_at x0 x1 b p q c

end Cert.Falloff.RefRead

end
-- ==== Proof.RefRun.lean ====
/-
  The reference program's run.  Its `main` is a straight line of 47 array operations, each reading
  buffers written earlier (or the two arguments) and writing one new buffer.  Listed in order, the
  operations determine the final memory: the last buffer holds the operations' functions composed,
  applied to the two argument arrays, and no operation writes an argument buffer.  That composed
  function is `RefRead.refTerm`, whose definitions spell the same operations one at a time.
-/
import proofs.«100488_j83434034692733_2_alg».proof.Proof.Gen.ReferenceIdeal
import proofs.«100488_j83434034692733_2_alg».proof.Proof.RefRead
import Idealize.ShloMosaic.Lib.StableHlo.Run

noncomputable section

namespace Cert.Falloff.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 47 operations, in order. -/
abbrev ops : List (HloOp τ sig (Elt F)) :=
  [ unary main_arg0 main_v0 ((extractStridedSlice S2x512x1 ![0, 0, 0] · slices_S2x512x6_S2x512x1_0_0_0) : (⟨S2x512x6, .f32⟩ : BufTy).Contents (Elt F) → (⟨S2x512x1, .f32⟩ : BufTy).Contents (Elt F)),
    reshape main_v0 main_v1 rfl shapeCasts_S2x512x1_S2x512,
    unary main_arg0 main_v2 ((extractStridedSlice S2x512x1 ![0, 0, 1] · slices_S2x512x6_S2x512x1_0_0_1) : (⟨S2x512x6, .f32⟩ : BufTy).Contents (Elt F) → (⟨S2x512x1, .f32⟩ : BufTy).Contents (Elt F)),
    reshape main_v2 main_v3 rfl shapeCasts_S2x512x1_S2x512,
    unary main_arg0 main_v4 ((extractStridedSlice S2x512x1 ![0, 0, 2] · slices_S2x512x6_S2x512x1_0_0_2) : (⟨S2x512x6, .f32⟩ : BufTy).Contents (Elt F) → (⟨S2x512x1, .f32⟩ : BufTy).Contents (Elt F)),
    reshape main_v4 main_v5 rfl shapeCasts_S2x512x1_S2x512,
    unary main_arg0 main_v6 ((extractStridedSlice S2x512x1 ![0, 0, 3] · slices_S2x512x6_S2x512x1_0_0_3) : (⟨S2x512x6, .f32⟩ : BufTy).Contents (Elt F) → (⟨S2x512x1, .f32⟩ : BufTy).Contents (Elt F)),
    reshape main_v6 main_v7 rfl shapeCasts_S2x512x1_S2x512,
    unary main_arg0 main_v8 ((extractStridedSlice S2x512x1 ![0, 0, 4] · slices_S2x512x6_S2x512x1_0_0_4) : (⟨S2x512x6, .f32⟩ : BufTy).Contents (Elt F) → (⟨S2x512x1, .f32⟩ : BufTy).Contents (Elt F)),
    reshape main_v8 main_v9 rfl shapeCasts_S2x512x1_S2x512,
    unary main_arg0 main_v10 ((extractStridedSlice S2x512x1 ![0, 0, 5] · slices_S2x512x6_S2x512x1_0_0_5) : (⟨S2x512x6, .f32⟩ : BufTy).Contents (Elt F) → (⟨S2x512x1, .f32⟩ : BufTy).Contents (Elt F)),
    reshape main_v10 main_v11 rfl shapeCasts_S2x512x1_S2x512,
    unary main_v1 main_v12 (broadcastInDim S2x512x1 ![0, 1] bcast_S2x512_S2x512x1_0_1 : (⟨S2x512, .f32⟩ : BufTy).Contents (Elt F) → (⟨S2x512x1, .f32⟩ : BufTy).Contents (Elt F)),
    unary main_v3 main_v13 (broadcastInDim S2x512x1 ![0, 1] bcast_S2x512_S2x512x1_0_1 : (⟨S2x512, .f32⟩ : BufTy).Contents (Elt F) → (⟨S2x512x1, .f32⟩ : BufTy).Contents (Elt F)),
    binary main_v12 main_v13 main_v14 ((fun a b => concatenate S2x512x2 2 [⟨S2x512x1, a⟩, ⟨S2x512x1, b⟩] concatenates_S2x512x1_S2x512x1_S2x512x2_d2) : (⟨S2x512x1, .f32⟩ : BufTy).Contents (Elt F) → (⟨S2x512x1, .f32⟩ : BufTy).Contents (Elt F) → (⟨S2x512x2, .f32⟩ : BufTy).Contents (Elt F)),
    unary main_arg1 main_v15 (broadcastInDim S2x256x256x1x2 ![0, 1, 2, 4] bcast_S2x256x256x2_S2x256x256x1x2_0_1_2_4 : (⟨S2x256x256x2, .f32⟩ : BufTy).Contents (Elt F) → (⟨S2x256x256x1x2, .f32⟩ : BufTy).Contents (Elt F)),
    unary main_v14 main_v16 (broadcastInDim S2x1x1x512x2 ![0, 3, 4] bcast_S2x512x2_S2x1x1x512x2_0_3_4 : (⟨S2x512x2, .f32⟩ : BufTy).Contents (Elt F) → (⟨S2x1x1x512x2, .f32⟩ : BufTy).Contents (Elt F)),
    unary main_v15 main_v17 (broadcastInDim S2x256x256x512x2 ![0, 1, 2, 3, 4] bcast_S2x256x256x1x2_S2x256x256x512x2_0_1_2_3_4 : (⟨S2x256x256x1x2, .f32⟩ : BufTy).Contents (Elt F) → (⟨S2x256x256x512x2, .f32⟩ : BufTy).Contents (Elt F)),
    unary main_v16 main_v18 (broadcastInDim S2x256x256x512x2 ![0, 1, 2, 3, 4] bcast_S2x1x1x512x2_S2x256x256x512x2_0_1_2_3_4 : (⟨S2x1x1x512x2, .f32⟩ : BufTy).Contents (Elt F) → (⟨S2x256x256x512x2, .f32⟩ : BufTy).Contents (Elt F)),
    binary main_v17 main_v18 main_v19 (subf : (⟨S2x256x256x512x2, .f32⟩ : BufTy).Contents (Elt F) → (⟨S2x256x256x512x2, .f32⟩ : BufTy).Contents (Elt F) → (⟨S2x256x256x512x2, .f32⟩ : BufTy).Contents (Elt F)),
    binary main_v19 main_v19 main_v20 (mulf : (⟨S2x256x256x512x2, .f32⟩ : BufTy).Contents (Elt F) → (⟨S2x256x256x512x2, .f32⟩ : BufTy).Contents (Elt F) → (⟨S2x256x256x512x2, .f32⟩ : BufTy).Contents (Elt F)),
    nullary main_cst (constant S_ .f32 0x00000000#32),
    binary main_v20 main_cst main_v21 ((fun x v => Host.reduceAdd x v reducesTo_S2x256x256x512x2_S2x256x256x512_d4 h_S_) : (⟨S2x256x256x512x2, .f32⟩ : BufTy).Contents (Elt F) → (⟨S_, .f32⟩ : BufTy).Contents (Elt F) → (⟨S2x256x256x512, .f32⟩ : BufTy).Contents (Elt F)),
    unary main_v21 main_v22 (broadcastInDim S2x256x256x512x1 ![0, 1, 2, 3] bcast_S2x256x256x512_S2x256x256x512x1_0_1_2_3 : (⟨S2x256x256x512, .f32⟩ : BufTy).Contents (Elt F) → (⟨S2x256x256x512x1, .f32⟩ : BufTy).Contents (Elt F)),
    unary main_v7 main_v23 (broadcastInDim S2x1x1x512x1 ![0, 3] bcast_S2x512_S2x1x1x512x1_0_3 : (⟨S2x512, .f32⟩ : BufTy).Contents (Elt F) → (⟨S2x1x1x512x1, .f32⟩ : BufTy).Contents (Elt F)),
    unary main_v5 main_v24 (broadcastInDim S2x1x1x512x1 ![0, 3] bcast_S2x512_S2x1x1x512x1_0_3 : (⟨S2x512, .f32⟩ : BufTy).Contents (Elt F) → (⟨S2x1x1x512x1, .f32⟩ : BufTy).Contents (Elt F)),
    unary main_v22 main_v25 (Host.negf : (⟨S2x256x256x512x1, .f32⟩ : BufTy).Contents (Elt F) → (⟨S2x256x256x512x1, .f32⟩ : BufTy).Contents (Elt F)),
    binary main_v23 main_v23 main_v26 (mulf : (⟨S2x1x1x512x1, .f32⟩ : BufTy).Contents (Elt F) → (⟨S2x1x1x512x1, .f32⟩ : BufTy).Contents (Elt F) → (⟨S2x1x1x512x1, .f32⟩ : BufTy).Contents (Elt F)),
    unary main_v26 main_v27 (broadcastInDim S2x256x256x512x1 ![0, 1, 2, 3, 4] bcast_S2x1x1x512x1_S2x256x256x512x1_0_1_2_3_4 : (⟨S2x1x1x512x1, .f32⟩ : BufTy).Contents (Elt F) → (⟨S2x256x256x512x1, .f32⟩ : BufTy).Contents (Elt F)),
    binary main_v25 main_v27 main_v28 (Host.divf : (⟨S2x256x256x512x1, .f32⟩ : BufTy).Contents (Elt F) → (⟨S2x256x256x512x1, .f32⟩ : BufTy).Contents (Elt F) → (⟨S2x256x256x512x1, .f32⟩ : BufTy).Contents (Elt F)),
    unary main_v28 main_v29 (Host.exp : (⟨S2x256x256x512x1, .f32⟩ : BufTy).Contents (Elt F) → (⟨S2x256x256x512x1, .f32⟩ : BufTy).Contents (Elt F)),
    unary main_v22 main_v30 (Host.sqrt : (⟨S2x256x256x512x1, .f32⟩ : BufTy).Contents (Elt F) → (⟨S2x256x256x512x1, .f32⟩ : BufTy).Contents (Elt F)),
    binary main_v29 main_v30 main_v31 (Host.divf : (⟨S2x256x256x512x1, .f32⟩ : BufTy).Contents (Elt F) → (⟨S2x256x256x512x1, .f32⟩ : BufTy).Contents (Elt F) → (⟨S2x256x256x512x1, .f32⟩ : BufTy).Contents (Elt F)),
    unary main_v24 main_v32 (broadcastInDim S2x256x256x512x1 ![0, 1, 2, 3, 4] bcast_S2x1x1x512x1_S2x256x256x512x1_0_1_2_3_4 : (⟨S2x1x1x512x1, .f32⟩ : BufTy).Contents (Elt F) → (⟨S2x256x256x512x1, .f32⟩ : BufTy).Contents (Elt F)),
    binary main_v32 main_v31 main_v33 (mulf : (⟨S2x256x256x512x1, .f32⟩ : BufTy).Contents (Elt F) → (⟨S2x256x256x512x1, .f32⟩ : BufTy).Contents (Elt F) → (⟨S2x256x256x512x1, .f32⟩ : BufTy).Contents (Elt F)),
    unary main_v19 main_v34 ((extractStridedSlice S2x256x256x512x1 ![0, 0, 0, 0, 0] · slices_S2x256x256x512x2_S2x256x256x512x1_0_0_0_0_0) : (⟨S2x256x256x512x2, .f32⟩ : BufTy).Contents (Elt F) → (⟨S2x256x256x512x1, .f32⟩ : BufTy).Contents (Elt F)),
    reshape main_v34 main_v35 rfl shapeCasts_S2x256x256x512x1_S2x256x256x512,
    unary main_v19 main_v36 ((extractStridedSlice S2x256x256x512x1 ![0, 0, 0, 0, 1] · slices_S2x256x256x512x2_S2x256x256x512x1_0_0_0_0_1) : (⟨S2x256x256x512x2, .f32⟩ : BufTy).Contents (Elt F) → (⟨S2x256x256x512x1, .f32⟩ : BufTy).Contents (Elt F)),
    reshape main_v36 main_v37 rfl shapeCasts_S2x256x256x512x1_S2x256x256x512,
    unary main_v35 main_v38 (Host.negf : (⟨S2x256x256x512, .f32⟩ : BufTy).Contents (Elt F) → (⟨S2x256x256x512, .f32⟩ : BufTy).Contents (Elt F)),
    unary main_v37 main_v39 (broadcastInDim S2x256x256x512x1 ![0, 1, 2, 3] bcast_S2x256x256x512_S2x256x256x512x1_0_1_2_3 : (⟨S2x256x256x512, .f32⟩ : BufTy).Contents (Elt F) → (⟨S2x256x256x512x1, .f32⟩ : BufTy).Contents (Elt F)),
    unary main_v38 main_v40 (broadcastInDim S2x256x256x512x1 ![0, 1, 2, 3] bcast_S2x256x256x512_S2x256x256x512x1_0_1_2_3 : (⟨S2x256x256x512, .f32⟩ : BufTy).Contents (Elt F) → (⟨S2x256x256x512x1, .f32⟩ : BufTy).Contents (Elt F)),
    binary main_v39 main_v40 main_v41 ((fun a b => concatenate S2x256x256x512x2 4 [⟨S2x256x256x512x1, a⟩, ⟨S2x256x256x512x1, b⟩] concatenates_S2x256x256x512x1_S2x256x256x512x1_S2x256x256x512x2_d4) : (⟨S2x256x256x512x1, .f32⟩ : BufTy).Contents (Elt F) → (⟨S2x256x256x512x1, .f32⟩ : BufTy).Contents (Elt F) → (⟨S2x256x256x512x2, .f32⟩ : BufTy).Contents (Elt F)),
    unary main_v33 main_v42 (broadcastInDim S2x256x256x512x2 ![0, 1, 2, 3, 4] bcast_S2x256x256x512x1_S2x256x256x512x2_0_1_2_3_4 : (⟨S2x256x256x512x1, .f32⟩ : BufTy).Contents (Elt F) → (⟨S2x256x256x512x2, .f32⟩ : BufTy).Contents (Elt F)),
    binary main_v42 main_v41 main_v43 (mulf : (⟨S2x256x256x512x2, .f32⟩ : BufTy).Contents (Elt F) → (⟨S2x256x256x512x2, .f32⟩ : BufTy).Contents (Elt F) → (⟨S2x256x256x512x2, .f32⟩ : BufTy).Contents (Elt F)),
    nullary main_cst_0 (constant S_ .f32 0x00000000#32),
    binary main_v43 main_cst_0 main_v44 ((fun x v => Host.reduceAdd x v reducesTo_S2x256x256x512x2_S2x256x256x2_d3 h_S_) : (⟨S2x256x256x512x2, .f32⟩ : BufTy).Contents (Elt F) → (⟨S_, .f32⟩ : BufTy).Contents (Elt F) → (⟨S2x256x256x2, .f32⟩ : BufTy).Contents (Elt F)) ]

set_option maxRecDepth 8192 in
/-- The program is its operations run one after the other. -/
theorem main_eq (c : Dev nD) : main (F := F) c = seq ops := rfl
/-- No buffer and no semaphore is scoped. -/
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation reads and writes buffers of the device only. -/
theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., binary_bufs_sub .., nullary_bufs_sub .., binary_bufs_sub .., unary_bufs_sub .., unary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., reshape_bufs_sub .., unary_bufs_sub .., reshape_bufs_sub .., unary_bufs_sub .., unary_bufs_sub .., unary_bufs_sub .., binary_bufs_sub .., unary_bufs_sub .., binary_bufs_sub .., nullary_bufs_sub .., binary_bufs_sub ..⟩

set_option maxRecDepth 8192 in
/-- The operations' functions composed, as one closed term of the two argument arrays. -/
def resTerm (x0 : (⟨S2x512x6, .f32⟩ : BufTy).Contents (Elt F)) (x1 : (⟨S2x256x256x2, .f32⟩ : BufTy).Contents (Elt F)) : (⟨S2x256x256x2, .f32⟩ : BufTy).Contents (Elt F) :=
  Host.reduceAdd (mulf (broadcastInDim S2x256x256x512x2 ![0, 1, 2, 3, 4] bcast_S2x256x256x512x1_S2x256x256x512x2_0_1_2_3_4 (mulf (broadcastInDim S2x256x256x512x1 ![0, 1, 2, 3, 4] bcast_S2x1x1x512x1_S2x256x256x512x1_0_1_2_3_4 (broadcastInDim S2x1x1x512x1 ![0, 3] bcast_S2x512_S2x1x1x512x1_0_3 (shapeCast _ (extractStridedSlice S2x512x1 ![0, 0, 2] x0 slices_S2x512x6_S2x512x1_0_0_2) shapeCasts_S2x512x1_S2x512))) (Host.divf (Host.exp (Host.divf (Host.negf (broadcastInDim S2x256x256x512x1 ![0, 1, 2, 3] bcast_S2x256x256x512_S2x256x256x512x1_0_1_2_3 (Host.reduceAdd (mulf (subf (broadcastInDim S2x256x256x512x2 ![0, 1, 2, 3, 4] bcast_S2x256x256x1x2_S2x256x256x512x2_0_1_2_3_4 (broadcastInDim S2x256x256x1x2 ![0, 1, 2, 4] bcast_S2x256x256x2_S2x256x256x1x2_0_1_2_4 x1)) (broadcastInDim S2x256x256x512x2 ![0, 1, 2, 3, 4] bcast_S2x1x1x512x2_S2x256x256x512x2_0_1_2_3_4 (broadcastInDim S2x1x1x512x2 ![0, 3, 4] bcast_S2x512x2_S2x1x1x512x2_0_3_4 (concatenate S2x512x2 2 [⟨S2x512x1, (broadcastInDim S2x512x1 ![0, 1] bcast_S2x512_S2x512x1_0_1 (shapeCast _ (extractStridedSlice S2x512x1 ![0, 0, 0] x0 slices_S2x512x6_S2x512x1_0_0_0) shapeCasts_S2x512x1_S2x512))⟩, ⟨S2x512x1, (broadcastInDim S2x512x1 ![0, 1] bcast_S2x512_S2x512x1_0_1 (shapeCast _ (extractStridedSlice S2x512x1 ![0, 0, 1] x0 slices_S2x512x6_S2x512x1_0_0_1) shapeCasts_S2x512x1_S2x512))⟩] concatenates_S2x512x1_S2x512x1_S2x512x2_d2)))) (subf (broadcastInDim S2x256x256x512x2 ![0, 1, 2, 3, 4] bcast_S2x256x256x1x2_S2x256x256x512x2_0_1_2_3_4 (broadcastInDim S2x256x256x1x2 ![0, 1, 2, 4] bcast_S2x256x256x2_S2x256x256x1x2_0_1_2_4 x1)) (broadcastInDim S2x256x256x512x2 ![0, 1, 2, 3, 4] bcast_S2x1x1x512x2_S2x256x256x512x2_0_1_2_3_4 (broadcastInDim S2x1x1x512x2 ![0, 3, 4] bcast_S2x512x2_S2x1x1x512x2_0_3_4 (concatenate S2x512x2 2 [⟨S2x512x1, (broadcastInDim S2x512x1 ![0, 1] bcast_S2x512_S2x512x1_0_1 (shapeCast _ (extractStridedSlice S2x512x1 ![0, 0, 0] x0 slices_S2x512x6_S2x512x1_0_0_0) shapeCasts_S2x512x1_S2x512))⟩, ⟨S2x512x1, (broadcastInDim S2x512x1 ![0, 1] bcast_S2x512_S2x512x1_0_1 (shapeCast _ (extractStridedSlice S2x512x1 ![0, 0, 1] x0 slices_S2x512x6_S2x512x1_0_0_1) shapeCasts_S2x512x1_S2x512))⟩] concatenates_S2x512x1_S2x512x1_S2x512x2_d2))))) (constant S_ .f32 0x00000000#32) reducesTo_S2x256x256x512x2_S2x256x256x512_d4 h_S_))) (broadcastInDim S2x256x256x512x1 ![0, 1, 2, 3, 4] bcast_S2x1x1x512x1_S2x256x256x512x1_0_1_2_3_4 (mulf (broadcastInDim S2x1x1x512x1 ![0, 3] bcast_S2x512_S2x1x1x512x1_0_3 (shapeCast _ (extractStridedSlice S2x512x1 ![0, 0, 3] x0 slices_S2x512x6_S2x512x1_0_0_3) shapeCasts_S2x512x1_S2x512)) (broadcastInDim S2x1x1x512x1 ![0, 3] bcast_S2x512_S2x1x1x512x1_0_3 (shapeCast _ (extractStridedSlice S2x512x1 ![0, 0, 3] x0 slices_S2x512x6_S2x512x1_0_0_3) shapeCasts_S2x512x1_S2x512)))))) (Host.sqrt (broadcastInDim S2x256x256x512x1 ![0, 1, 2, 3] bcast_S2x256x256x512_S2x256x256x512x1_0_1_2_3 (Host.reduceAdd (mulf (subf (broadcastInDim S2x256x256x512x2 ![0, 1, 2, 3, 4] bcast_S2x256x256x1x2_S2x256x256x512x2_0_1_2_3_4 (broadcastInDim S2x256x256x1x2 ![0, 1, 2, 4] bcast_S2x256x256x2_S2x256x256x1x2_0_1_2_4 x1)) (broadcastInDim S2x256x256x512x2 ![0, 1, 2, 3, 4] bcast_S2x1x1x512x2_S2x256x256x512x2_0_1_2_3_4 (broadcastInDim S2x1x1x512x2 ![0, 3, 4] bcast_S2x512x2_S2x1x1x512x2_0_3_4 (concatenate S2x512x2 2 [⟨S2x512x1, (broadcastInDim S2x512x1 ![0, 1] bcast_S2x512_S2x512x1_0_1 (shapeCast _ (extractStridedSlice S2x512x1 ![0, 0, 0] x0 slices_S2x512x6_S2x512x1_0_0_0) shapeCasts_S2x512x1_S2x512))⟩, ⟨S2x512x1, (broadcastInDim S2x512x1 ![0, 1] bcast_S2x512_S2x512x1_0_1 (shapeCast _ (extractStridedSlice S2x512x1 ![0, 0, 1] x0 slices_S2x512x6_S2x512x1_0_0_1) shapeCasts_S2x512x1_S2x512))⟩] concatenates_S2x512x1_S2x512x1_S2x512x2_d2)))) (subf (broadcastInDim S2x256x256x512x2 ![0, 1, 2, 3, 4] bcast_S2x256x256x1x2_S2x256x256x512x2_0_1_2_3_4 (broadcastInDim S2x256x256x1x2 ![0, 1, 2, 4] bcast_S2x256x256x2_S2x256x256x1x2_0_1_2_4 x1)) (broadcastInDim S2x256x256x512x2 ![0, 1, 2, 3, 4] bcast_S2x1x1x512x2_S2x256x256x512x2_0_1_2_3_4 (broadcastInDim S2x1x1x512x2 ![0, 3, 4] bcast_S2x512x2_S2x1x1x512x2_0_3_4 (concatenate S2x512x2 2 [⟨S2x512x1, (broadcastInDim S2x512x1 ![0, 1] bcast_S2x512_S2x512x1_0_1 (shapeCast _ (extractStridedSlice S2x512x1 ![0, 0, 0] x0 slices_S2x512x6_S2x512x1_0_0_0) shapeCasts_S2x512x1_S2x512))⟩, ⟨S2x512x1, (broadcastInDim S2x512x1 ![0, 1] bcast_S2x512_S2x512x1_0_1 (shapeCast _ (extractStridedSlice S2x512x1 ![0, 0, 1] x0 slices_S2x512x6_S2x512x1_0_0_1) shapeCasts_S2x512x1_S2x512))⟩] concatenates_S2x512x1_S2x512x1_S2x512x2_d2))))) (constant S_ .f32 0x00000000#32) reducesTo_S2x256x256x512x2_S2x256x256x512_d4 h_S_)))))) (concatenate S2x256x256x512x2 4 [⟨S2x256x256x512x1, (broadcastInDim S2x256x256x512x1 ![0, 1, 2, 3] bcast_S2x256x256x512_S2x256x256x512x1_0_1_2_3 (shapeCast _ (extractStridedSlice S2x256x256x512x1 ![0, 0, 0, 0, 1] (subf (broadcastInDim S2x256x256x512x2 ![0, 1, 2, 3, 4] bcast_S2x256x256x1x2_S2x256x256x512x2_0_1_2_3_4 (broadcastInDim S2x256x256x1x2 ![0, 1, 2, 4] bcast_S2x256x256x2_S2x256x256x1x2_0_1_2_4 x1)) (broadcastInDim S2x256x256x512x2 ![0, 1, 2, 3, 4] bcast_S2x1x1x512x2_S2x256x256x512x2_0_1_2_3_4 (broadcastInDim S2x1x1x512x2 ![0, 3, 4] bcast_S2x512x2_S2x1x1x512x2_0_3_4 (concatenate S2x512x2 2 [⟨S2x512x1, (broadcastInDim S2x512x1 ![0, 1] bcast_S2x512_S2x512x1_0_1 (shapeCast _ (extractStridedSlice S2x512x1 ![0, 0, 0] x0 slices_S2x512x6_S2x512x1_0_0_0) shapeCasts_S2x512x1_S2x512))⟩, ⟨S2x512x1, (broadcastInDim S2x512x1 ![0, 1] bcast_S2x512_S2x512x1_0_1 (shapeCast _ (extractStridedSlice S2x512x1 ![0, 0, 1] x0 slices_S2x512x6_S2x512x1_0_0_1) shapeCasts_S2x512x1_S2x512))⟩] concatenates_S2x512x1_S2x512x1_S2x512x2_d2)))) slices_S2x256x256x512x2_S2x256x256x512x1_0_0_0_0_1) shapeCasts_S2x256x256x512x1_S2x256x256x512))⟩, ⟨S2x256x256x512x1, (broadcastInDim S2x256x256x512x1 ![0, 1, 2, 3] bcast_S2x256x256x512_S2x256x256x512x1_0_1_2_3 (Host.negf (shapeCast _ (extractStridedSlice S2x256x256x512x1 ![0, 0, 0, 0, 0] (subf (broadcastInDim S2x256x256x512x2 ![0, 1, 2, 3, 4] bcast_S2x256x256x1x2_S2x256x256x512x2_0_1_2_3_4 (broadcastInDim S2x256x256x1x2 ![0, 1, 2, 4] bcast_S2x256x256x2_S2x256x256x1x2_0_1_2_4 x1)) (broadcastInDim S2x256x256x512x2 ![0, 1, 2, 3, 4] bcast_S2x1x1x512x2_S2x256x256x512x2_0_1_2_3_4 (broadcastInDim S2x1x1x512x2 ![0, 3, 4] bcast_S2x512x2_S2x1x1x512x2_0_3_4 (concatenate S2x512x2 2 [⟨S2x512x1, (broadcastInDim S2x512x1 ![0, 1] bcast_S2x512_S2x512x1_0_1 (shapeCast _ (extractStridedSlice S2x512x1 ![0, 0, 0] x0 slices_S2x512x6_S2x512x1_0_0_0) shapeCasts_S2x512x1_S2x512))⟩, ⟨S2x512x1, (broadcastInDim S2x512x1 ![0, 1] bcast_S2x512_S2x512x1_0_1 (shapeCast _ (extractStridedSlice S2x512x1 ![0, 0, 1] x0 slices_S2x512x6_S2x512x1_0_0_1) shapeCasts_S2x512x1_S2x512))⟩] concatenates_S2x512x1_S2x512x1_S2x512x2_d2)))) slices_S2x256x256x512x2_S2x256x256x512x1_0_0_0_0_0) shapeCasts_S2x256x256x512x1_S2x256x256x512)))⟩] concatenates_S2x256x256x512x1_S2x256x256x512x1_S2x256x256x512x2_d4)) (constant S_ .f32 0x00000000#32) reducesTo_S2x256x256x512x2_S2x256x256x2_d3 h_S_

set_option maxRecDepth 8192 in
/-- The closed term is `refTerm`: the stage definitions spell the same operations one at a time. -/
theorem resTerm_eq_refTerm (x0 : (⟨S2x512x6, .f32⟩ : BufTy).Contents (Elt F)) (x1 : (⟨S2x256x256x2, .f32⟩ : BufTy).Contents (Elt F)) :
    resTerm (F := F) x0 x1 = Cert.Falloff.RefRead.refTerm (F := F) x0 x1 := rfl

set_option maxRecDepth 8192 in
set_option maxHeartbeats 2000000 in
/-- On every device, for any float values, from any memory with zero counters: every weakly fair execution of
    the program terminates with the result buffer at `refTerm` of the two argument arrays and the argument
    buffers unchanged. -/
theorem run (m : (ℓ : Loc nD τ sig) → Buf (Elt F) ℓ) (ρ : Dev nD → PrngReg) :
    θ_run Cert.ReferenceIdeal.defs (onTc (τ := τ) (Cert.ReferenceIdeal.main (F := F))) ⟨m, fun _ => 0, ρ⟩ fun r => ∀ c : Dev nD,
      r.2.mem ((c.tc : Thread nD τ).loc main_v44)
          = Cert.Falloff.RefRead.refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v44).trans (by
        after_results_simp
        repeat (first
          | rw [nullary_result] | rw [unary_result] | rw [binary_result] | rw [reshape_result]
          | (rw [nullary_result_ne]; rotate_left; decide)
          | (rw [unary_result_ne]; rotate_left; decide)
          | (rw [binary_result_ne]; rotate_left; decide)
          | (rw [reshape_result_ne]; rotate_left; decide))
        refine Eq.trans ?_ (resTerm_eq_refTerm (F := F) (m ((c.tc : Thread nD τ).loc main_arg0)) (m ((c.tc : Thread nD τ).loc main_arg1)))
        unfold resTerm
        rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.Falloff.RefRun

end
-- ==== Proof.lean ====
/-
  The certificate's claims, assembled.

  The kernel computes, for every pixel of a 2 × 256 × 256 image and each of two channels, the sum over the
  512 vortices of the pixel's batch of a Gaussian-falloff weight times a displacement component; the
  reference computes the same field through a 2 × 256 × 256 × 512 × 2 intermediate.  At the ideal instance
  both results are one function of the two argument arrays wherever every input entry is a real number:

  * the kernel's result array is `outK` of the arguments: each grid point leaves in its output block the
    sums its chunk loop accumulates (a sum taken in four chunks of 128 is the whole sum), the blocks tile
    the array, and the transposes around the call only rename coordinates;
  * the reference's result array is `outR` of the arguments, read off its 47 operations one at a time;
  * `outK = outR` on real entries: a vortex's two spellings of its contribution (a product with a
    reciprocal and a reciprocal square root against two quotients) agree where the squared distance is
    positive, and where it is zero both displacement components are zero, so both contributions are zero
    whatever the weight;
  * the precondition says exactly that every entry is real.

  The three frames are the generated frame runs (the reference's with its result dropped); the ideal pass
  rewrote nothing, so the kernel's idealization is the kernel's own text.
-/
import proofs.«100488_j83434034692733_2_alg».proof.Defs
import proofs.«100488_j83434034692733_2_alg».proof.Proof.Gen.Kernel
import proofs.«100488_j83434034692733_2_alg».proof.Proof.Gen.Kernel.Skeleton
import proofs.«100488_j83434034692733_2_alg».proof.Proof.Gen.Kernel.Loops
import proofs.«100488_j83434034692733_2_alg».proof.Proof.Gen.Kernel.Launch
import proofs.«100488_j83434034692733_2_alg».proof.Proof.Gen.Kernel.Points
import proofs.«100488_j83434034692733_2_alg».proof.Proof.Gen.Kernel.Frame
import proofs.«100488_j83434034692733_2_alg».proof.Proof.Gen.KernelIdeal
import proofs.«100488_j83434034692733_2_alg».proof.Proof.Gen.KernelIdeal.Skeleton
import proofs.«100488_j83434034692733_2_alg».proof.Proof.Gen.KernelIdeal.Loops
import proofs.«100488_j83434034692733_2_alg».proof.Proof.Gen.KernelIdeal.Launch
import proofs.«100488_j83434034692733_2_alg».proof.Proof.Gen.KernelIdeal.Points
import proofs.«100488_j83434034692733_2_alg».proof.Proof.Gen.KernelIdeal.Frame
import proofs.«100488_j83434034692733_2_alg».proof.Proof.Gen.ReferenceIdeal
import proofs.«100488_j83434034692733_2_alg».proof.Proof.Gen.Pre_finite_inputs
import proofs.«100488_j83434034692733_2_alg».proof.Proof.Spec
import proofs.«100488_j83434034692733_2_alg».proof.Proof.FiniteEntries
import proofs.«100488_j83434034692733_2_alg».proof.Proof.KernelArray
import proofs.«100488_j83434034692733_2_alg».proof.Proof.RefRead
import proofs.«100488_j83434034692733_2_alg».proof.Proof.RefRun
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.Falloff.RefRun.run (F := Ideal) m ρ)

/-- The ideal pass rewrote nothing. -/
theorem preserves : Cert.preserves_Kernel_KernelIdeal := trivial

/-- From memories that agree on the arguments, both idealized programs end with the same velocity field: the kernel's
    array is `outK` of the arguments, the reference's `outR`, and on real entries the two agree. -/
theorem algebraic : Cert.algebraic_KernelIdeal_ReferenceIdeal := by
  intro m ρ m' ρ' hpre hagree
  refine ⟨fun c => Cert.Falloff.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Falloff.KArray.kernel_run m ρ, ?_⟩
  refine (θ_run Cert.ReferenceIdeal.defs _ _).mono (fun _ h c => ⟨(h c).1.trans ?_, (h c).2⟩)
    (Cert.Falloff.RefRun.run (F := Ideal) m' ρ')
  rw [(hagree c).1, (hagree c).2, Cert.Falloff.RefRead.refTerm_is_outR]
  obtain ⟨h0, h1⟩ := Cert.Falloff.Finite.real_entries _ _ (hpre c)
  exact (Cert.Falloff.out_eq _ _ h0 h1).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
